-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x768x32x32 : Shape := ⟨4, ![32, 768, 32, 32]⟩
abbrev S512x768 : Shape := ⟨2, ![512, 768]⟩
abbrev S_ : Shape := ⟨0, ![]⟩

class Facts : Prop where
  bcast_S_S32x768x32x32 : S_.BroadcastsInDim S32x768x32x32 (![] : Fin 0 → Fin S32x768x32x32.rank)
  reducesTo_S32x768x32x32_S_d0_1_2_3 : S32x768x32x32.ReducesTo [0, 1, 2, 3] S_
  h_S_ : 0 < S_.numel
  bcast_S_S512x768 : S_.BroadcastsInDim S512x768 (![] : Fin 0 → Fin S512x768.rank)
  reducesTo_S512x768_S_d0_1 : S512x768.ReducesTo [0, 1] S_

variable [Facts]

def fn {F : FTy → Type} [FloatOps F] (main_arg0 : FVec F S32x768x32x32 .f32) (main_arg1 : FVec F S512x768 .f32) : IVec S_ 1 :=
  let main_v0 : FVec F S32x768x32x32 .f32 := Host.absf main_arg0
  let main_cst : FVec F S_ .f32 := constant S_ .f32 0x7F800000#32
  let main_v1 : FVec F S32x768x32x32 .f32 := broadcastInDim S32x768x32x32 ![] bcast_S_S32x768x32x32 main_cst
  let main_v2 : IVec S32x768x32x32 1 := cmpf .olt main_v0 main_v1
  let main_c : IVec S_ 1 := constantI S_ 1 1#1
  let main_v3 : IVec S_ 1 := (fun x v => Host.reduce IntOp.andi x v reducesTo_S32x768x32x32_S_d0_1_2_3 h_S_) main_v2 main_c
  let main_v4 : FVec F S512x768 .f32 := Host.absf main_arg1
  let main_cst_0 : FVec F S_ .f32 := constant S_ .f32 0x7F800000#32
  let main_v5 : FVec F S512x768 .f32 := broadcastInDim S512x768 ![] bcast_S_S512x768 main_cst_0
  let main_v6 : IVec S512x768 1 := cmpf .olt main_v4 main_v5
  let main_c_1 : IVec S_ 1 := constantI S_ 1 1#1
  let main_v7 : IVec S_ 1 := (fun x v => Host.reduce IntOp.andi x v reducesTo_S512x768_S_d0_1 h_S_) main_v6 main_c_1
  let main_v8 : IVec S_ 1 := andi main_v3 main_v7
  main_v8
-- ==== Kernel.lean ====
abbrev S32x768x32x32 : Shape := ⟨4, ![32, 768, 32, 32]⟩
abbrev S512x768 : Shape := ⟨2, ![512, 768]⟩
abbrev S32x32x32x768 : Shape := ⟨4, ![32, 32, 32, 768]⟩
abbrev S32768x768 : Shape := ⟨2, ![32768, 768]⟩
abbrev S_ : Shape := ⟨0, ![]⟩
abbrev S512 : Shape := ⟨1, ![512]⟩
abbrev S512x1 : Shape := ⟨2, ![512, 1]⟩
abbrev S32768x512 : Shape := ⟨2, ![32768, 512]⟩
abbrev S512x512 : Shape := ⟨2, ![512, 512]⟩
abbrev S32x1024x512 : Shape := ⟨3, ![32, 1024, 512]⟩

abbrev nBuf : Space → Nat
  | .hbm => 21
  | .vmem => 8
  | .smem => 0
  | _ => 0

abbrev bufTy : (tb : Table) → Fin (tcTables nBuf tb) → BufTy
  | .hbm, ⟨0, _⟩ => ⟨S32x768x32x32, .f32⟩
  | .hbm, ⟨1, _⟩ => ⟨S512x768, .f32⟩
  | .hbm, ⟨2, _⟩ => ⟨S32x32x32x768, .f32⟩
  | .hbm, ⟨3, _⟩ => ⟨S32768x768, .f32⟩
  | .hbm, ⟨4, _⟩ => ⟨S512x768, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S512x768, .f32⟩
  | .hbm, ⟨13, _⟩ => ⟨S512x768, .f32⟩
  | .hbm, ⟨14, _⟩ => ⟨S512x768, .bf16⟩
  | .hbm, ⟨15, _⟩ => ⟨S512x768, .bf16⟩
  | .hbm, ⟨16, _⟩ => ⟨S32768x768, .f32⟩
  | .hbm, ⟨17, _⟩ => ⟨S32768x512, .f32⟩
  | .hbm, ⟨18, _⟩ => ⟨S32x32x32x768, .f32⟩
  | .hbm, ⟨19, _⟩ => ⟨S32x768x32x32, .f32⟩
  | .hbm, ⟨20, _⟩ => ⟨S32x1024x512, .f32⟩
  | .local _ .vmem, ⟨0, _⟩ => ⟨S512x768, .f32⟩
  | .local _ .vmem, ⟨1, _⟩ => ⟨S512x768, .f32⟩
  | .local _ .vmem, ⟨2, _⟩ => ⟨S512x768, .bf16⟩
  | .local _ .vmem, ⟨3, _⟩ => ⟨S512x768, .bf16⟩
  | .local _ .vmem, ⟨4, _⟩ => ⟨S512x768, .f32⟩
  | .local _ .vmem, ⟨5, _⟩ => ⟨S512x768, .f32⟩
  | .local _ .vmem, ⟨6, _⟩ => ⟨S512x512, .f32⟩
  | .local _ .vmem, ⟨7, _⟩ => ⟨S512x512, .f32⟩
  | _, _ => ⟨S32x768x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S32x768x32x32_S32x32x32x768_0_2_3_1 : S32x768x32x32.Transposes [0, 2, 3, 1] S32x32x32x768
  shapeCasts_S32x32x32x768_S32768x768 : S32x32x32x768.ShapeCasts S32768x768
  reducesTo_S512x768_S512_d1 : S512x768.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x768_0_1 : S512x1.BroadcastsInDim S512x768 (![0, 1] : Fin 2 → Fin S512x768.rank)
  bitsLt_bf16_f32 : FTy.bits .bf16 < FTy.bits .f32
  inb_S512x768_S512x768_0_0 : ∀ a, (![0, 0] : Fin 2 → Nat) a + S512x768.size a ≤ S512x768.size a
  h_S512x768 : 0 < S512x768.numel
  shapeCasts_S512x768_S512x768 : S512x768.ShapeCasts S512x768
  reduces_S512x768_S512 : S512x768.Reduces [1] S512
  shapeCasts_S512_S512x1 : S512.ShapeCasts S512x1
  broadcasts_S512x1_S512x768 : S512x1.Broadcasts S512x768
  reduces_S512x512_S512 : S512x512.Reduces [1] S512
  broadcasts_S512x1_S512x512 : S512x1.Broadcasts S512x512
  inb_S512x512_S512x512_0_0 : ∀ a, (![0, 0] : Fin 2 → Nat) a + S512x512.size a ≤ S512x512.size a
  h_S512x512 : 0 < S512x512.numel
  shapeCasts_S32768x768_S32x32x32x768 : S32768x768.ShapeCasts S32x32x32x768
  transposes_S32x32x32x768_S32x768x32x32_0_3_1_2 : S32x32x32x768.Transposes [0, 3, 1, 2] S32x768x32x32
  shapeCasts_S32768x512_S32x1024x512 : S32768x512.ShapeCasts S32x1024x512
  dot_S512x768_S512x768_S512x512_1_1_0_0_n_n_wf : DotDims.WF S512x768 S512x768 S512x512 [1] [1] [0] [0] [] []
  dot_S512x512_S512x768_S512x768_1_0_0_1_n_n_wf : DotDims.WF S512x512 S512x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S32768x768.size a
  hwx0_0 : ∀ i : grid0.Coords, EltTy.bits .f32 = 32 ∨ (Rect.block (s := S32768x768) S512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x768.size a ≤ S512x768.size a
  hwx0_1 : ∀ i : grid0.Coords, EltTy.bits .bf16 = 32 ∨ (Rect.block (s := S512x768) S512x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x768.size a ≤ S512x768.size a
  hwx0_2 : ∀ i : grid0.Coords, EltTy.bits .bf16 = 32 ∨ (Rect.block (s := S512x768) S512x768.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x768.size a ≤ S32768x768.size a
  hwx0_3 : ∀ i : grid0.Coords, EltTy.bits .f32 = 32 ∨ (Rect.block (s := S32768x768) S512x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S32768x512.size a
  hwx0_4 : ∀ i : grid0.Coords, EltTy.bits .f32 = 32 ∨ (Rect.block (s := S32768x512) S512x512.size (cc0_transform_4 i) (hinb0_4 i)).WholeWords (EltTy.packing .f32)

variable [Facts₀]

def dot_S512x768_S512x768_S512x512_1_1_0_0_n_n : DotDims S512x768 S512x768 S512x512 where
  lhsContracting := [1]
  rhsContracting := [1]
  lhsNonContracting := [0]
  rhsNonContracting := [0]
  lhsBatch := []
  rhsBatch := []
  wf := dot_S512x768_S512x768_S512x512_1_1_0_0_n_n_wf
def dot_S512x512_S512x768_S512x768_1_0_0_1_n_n : DotDims S512x512 S512x768 S512x768 where
  lhsContracting := [1]
  rhsContracting := [0]
  lhsNonContracting := [0]
  rhsNonContracting := [1]
  lhsBatch := []
  rhsBatch := []
  wf := dot_S512x512_S512x768_S512x768_1_0_0_1_n_n_wf

abbrev win0_0 : Pipeline.Window sig grid0 :=
  Pipeline.Window.ofSpec (Memref.whole main_v1) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S512x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S512x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12_0) S512x768.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12_1) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x768x32x32 : Shape := ⟨4, ![32, 768, 32, 32]⟩
abbrev S512x768 : Shape := ⟨2, ![512, 768]⟩
abbrev S32x32x32x768 : Shape := ⟨4, ![32, 32, 32, 768]⟩
abbrev S32x1024x768 : Shape := ⟨3, ![32, 1024, 768]⟩
abbrev S_ : Shape := ⟨0, ![]⟩
abbrev S32x1024 : Shape := ⟨2, ![32, 1024]⟩
abbrev S32x1024x1 : Shape := ⟨3, ![32, 1024, 1]⟩
abbrev S512 : Shape := ⟨1, ![512]⟩
abbrev S512x1 : Shape := ⟨2, ![512, 1]⟩
abbrev S32x1024x512 : Shape := ⟨3, ![32, 1024, 512]⟩

abbrev nBuf : Space → Nat
  | .hbm => 62
  | .vmem => 0
  | .smem => 0
  | _ => 0

abbrev bufTy : (tb : Table) → Fin (tcTables nBuf tb) → BufTy
  | .hbm, ⟨0, _⟩ => ⟨S32x768x32x32, .f32⟩
  | .hbm, ⟨1, _⟩ => ⟨S512x768, .f32⟩
  | .hbm, ⟨2, _⟩ => ⟨S32x32x32x768, .f32⟩
  | .hbm, ⟨3, _⟩ => ⟨S32x1024x768, .f32⟩
  | .hbm, ⟨4, _⟩ => ⟨S32x1024x768, .f32⟩
  | .hbm, ⟨5, _⟩ => ⟨S_, .f32⟩
  | .hbm, ⟨6, _⟩ => ⟨S32x1024, .f32⟩
  | .hbm, ⟨7, _⟩ => ⟨S32x1024x1, .f32⟩
  | .hbm, ⟨8, _⟩ => ⟨S32x1024x1, .f32⟩
  | .hbm, ⟨9, _⟩ => ⟨S_, .f32⟩
  | .hbm, ⟨10, _⟩ => ⟨S32x1024x1, .f32⟩
  | .hbm, ⟨11, _⟩ => ⟨S32x1024x1, .f32⟩
  | .hbm, ⟨12, _⟩ => ⟨S32x1024x768, .f32⟩
  | .hbm, ⟨13, _⟩ => ⟨S32x1024x768, .f32⟩
  | .hbm, ⟨14, _⟩ => ⟨S512x768, .f32⟩
  | .hbm, ⟨15, _⟩ => ⟨S_, .f32⟩
  | .hbm, ⟨16, _⟩ => ⟨S512, .f32⟩
  | .hbm, ⟨17, _⟩ => ⟨S512x1, .f32⟩
  | .hbm, ⟨18, _⟩ => ⟨S512x1, .f32⟩
  | .hbm, ⟨19, _⟩ => ⟨S_, .f32⟩
  | .hbm, ⟨20, _⟩ => ⟨S512x1, .f32⟩
  | .hbm, ⟨21, _⟩ => ⟨S512x1, .f32⟩
  | .hbm, ⟨22, _⟩ => ⟨S512x768, .f32⟩
  | .hbm, ⟨23, _⟩ => ⟨S512x768, .f32⟩
  | .hbm, ⟨24, _⟩ => ⟨S32x1024x512, .f32⟩
  | .hbm, ⟨25, _⟩ => ⟨S_, .f32⟩
  | .hbm, ⟨26, _⟩ => ⟨S32x1024, .f32⟩
  | .hbm, ⟨27, _⟩ => ⟨S_, .f32⟩
  | .hbm, ⟨28, _⟩ => ⟨S32x1024, .f32⟩
  | .hbm, ⟨29, _⟩ => ⟨S32x1024, .f32⟩
  | .hbm, ⟨30, _⟩ => ⟨S32x1024x1, .f32⟩
  | .hbm, ⟨31, _⟩ => ⟨S32x1024x512, .f32⟩
  | .hbm, ⟨32, _⟩ => ⟨S32x1024x512, .f32⟩
  | .hbm, ⟨33, _⟩ => ⟨S32x1024x512, .f32⟩
  | .hbm, ⟨34, _⟩ => ⟨S_, .f32⟩
  | .hbm, ⟨35, _⟩ => ⟨S32x1024, .f32⟩
  | .hbm, ⟨36, _⟩ => ⟨S32x1024x1, .f32⟩
  | .hbm, ⟨37, _⟩ => ⟨S32x1024x512, .f32⟩
  | .hbm, ⟨38, _⟩ => ⟨S32x1024x512, .f32⟩
  | .hbm, ⟨39, _⟩ => ⟨S_, .f32⟩
  | .hbm, ⟨40, _⟩ => ⟨S32x1024x512, .f32⟩
  | .hbm, ⟨41, _⟩ => ⟨S32x1024x512, .f32⟩
  | .hbm, ⟨42, _⟩ => ⟨S_, .f32⟩
  | .hbm, ⟨43, _⟩ => ⟨S32x1024x512, .f32⟩
  | .hbm, ⟨44, _⟩ => ⟨S32x1024x512, .f32⟩
  | .hbm, ⟨45, _⟩ => ⟨S32x1024x512, .f32⟩
  | .hbm, ⟨46, _⟩ => ⟨S32x1024x512, .f32⟩
  | .hbm, ⟨47, _⟩ => ⟨S_, .f32⟩
  | .hbm, ⟨48, _⟩ => ⟨S32x1024x512, .f32⟩
  | .hbm, ⟨49, _⟩ => ⟨S32x1024x512, .f32⟩
  | .hbm, ⟨50, _⟩ => ⟨S32x1024x512, .f32⟩
  | .hbm, ⟨51, _⟩ => ⟨S_, .f32⟩
  | .hbm, ⟨52, _⟩ => ⟨S32x1024, .f32⟩
  | .hbm, ⟨53, _⟩ => ⟨S32x1024x1, .f32⟩
  | .hbm, ⟨54, _⟩ => ⟨S_, .f32⟩
  | .hbm, ⟨55, _⟩ => ⟨S32x1024x1, .f32⟩
  | .hbm, ⟨56, _⟩ => ⟨S32x1024x1, .f32⟩
  | .hbm, ⟨57, _⟩ => ⟨S32x1024x512, .f32⟩
  | .hbm, ⟨58, _⟩ => ⟨S32x1024x512, .f32⟩
  | .hbm, ⟨59, _⟩ => ⟨S32x1024x768, .f32⟩
  | .hbm, ⟨60, _⟩ => ⟨S32x32x32x768, .f32⟩
  | .hbm, ⟨61, _⟩ => ⟨S32x768x32x32, .f32⟩
  | _, _ => ⟨S32x768x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_6 : Ref sig .tc := ⟨.hbm, 39, rfl⟩
abbrev main_v30 : Ref sig .tc := ⟨.hbm, 40, rfl⟩
abbrev main_v31 : Ref sig .tc := ⟨.hbm, 41, rfl⟩
abbrev main_call0_cst : Ref sig .tc := ⟨.hbm, 42, rfl⟩
abbrev main_call0_v0 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]

class Facts₀ : Prop where
  transposes_S32x768x32x32_S32x32x32x768_0_2_3_1 : S32x768x32x32.Transposes [0, 2, 3, 1] S32x32x32x768
  shapeCasts_S32x32x32x768_S32x1024x768 : S32x32x32x768.ShapeCasts S32x1024x768
  reducesTo_S32x1024x768_S32x1024_d2 : S32x1024x768.ReducesTo [2] S32x1024
  h_S_ : 0 < S_.numel
  bcast_S32x1024_S32x1024x1_0_1 : S32x1024.BroadcastsInDim S32x1024x1 (![0, 1] : Fin 2 → Fin S32x1024x1.rank)
  bcast_S_S32x1024x1 : S_.BroadcastsInDim S32x1024x1 (![] : Fin 0 → Fin S32x1024x1.rank)
  bcast_S32x1024x1_S32x1024x768_0_1_2 : S32x1024x1.BroadcastsInDim S32x1024x768 (![0, 1, 2] : Fin 3 → Fin S32x1024x768.rank)
  reducesTo_S512x768_S512_d1 : S512x768.ReducesTo [1] S512
  bcast_S512_S512x1_0 : S512.BroadcastsInDim S512x1 (![0] : Fin 1 → Fin S512x1.rank)
  bcast_S_S512x1 : S_.BroadcastsInDim S512x1 (![] : Fin 0 → Fin S512x1.rank)
  bcast_S512x1_S512x768_0_1 : S512x1.BroadcastsInDim S512x768 (![0, 1] : Fin 2 → Fin S512x768.rank)
  reducesTo_S32x1024x512_S32x1024_d2 : S32x1024x512.ReducesTo [2] S32x1024
  bcast_S_S32x1024 : S_.BroadcastsInDim S32x1024 (![] : Fin 0 → Fin S32x1024.rank)
  bcast_S32x1024x1_S32x1024x512_0_1_2 : S32x1024x1.BroadcastsInDim S32x1024x512 (![0, 1, 2] : Fin 3 → Fin S32x1024x512.rank)
  bcast_S_S32x1024x512 : S_.BroadcastsInDim S32x1024x512 (![] : Fin 0 → Fin S32x1024x512.rank)
  shapeCasts_S32x1024x768_S32x32x32x768 : S32x1024x768.ShapeCasts S32x32x32x768
  transposes_S32x32x32x768_S32x768x32x32_0_3_1_2 : S32x32x32x768.Transposes [0, 3, 1, 2] S32x768x32x32
  dot_S32x1024x768_S512x768_S32x1024x512_2_1_01_0_n_n_wf : DotDims.WF S32x1024x768 S512x768 S32x1024x512 [2] [1] [0, 1] [0] [] []
  dot_S32x1024x512_S512x768_S32x1024x768_2_0_01_1_n_n_wf : DotDims.WF S32x1024x512 S512x768 S32x1024x768 [2] [0] [0, 1] [1] [] []

variable [Facts₀]

def dot_S32x1024x768_S512x768_S32x1024x512_2_1_01_0_n_n : DotDims S32x1024x768 S512x768 S32x1024x512 where
  lhsContracting := [2]
  rhsContracting := [1]
  lhsNonContracting := [0, 1]
  rhsNonContracting := [0]
  lhsBatch := []
  rhsBatch := []
  wf := dot_S32x1024x768_S512x768_S32x1024x512_2_1_01_0_n_n_wf
def dot_S32x1024x512_S512x768_S32x1024x768_2_0_01_1_n_n : DotDims S32x1024x512 S512x768 S32x1024x768 where
  lhsContracting := [2]
  rhsContracting := [0]
  lhsNonContracting := [0, 1]
  rhsNonContracting := [1]
  lhsBatch := []
  rhsBatch := []
  wf := dot_S32x1024x512_S512x768_S32x1024x768_2_0_01_1_n_n_wf

class Facts : Prop extends Facts₀ where

variable [Facts]
-- ==== Proof.Spec.lean ====
/-
  The mathematics both programs compute, one token at a time.

  A token is a row `x` of 768 features; the memory bank is 512 rows `M j` of 768 features. Each row is scaled to
  unit length (divided by the larger of its Euclidean norm and a floor), the token's cosine scores against the bank
  are the inner products of the scaled rows, a softmax over the 512 scores gives weights `w`, each weight is
  hard-shrunk (`max (w - λ) 0 · w / (|w - λ| + ε)`) and the shrunk weights are renormalised by their sum plus `ε`;
  the readout is the weighted sum of the UNSCALED bank rows. Nothing here needs the extended reals' algebra beyond
  `0 + x = x` and `max a (fold max a s) = fold max a s`: both programs apply these operations in this order, and
  differ only in how the tokens are laid out in memory.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The floor under a row's norm (the f32 nearest 1e-12), the shrinkage's `ε` (the f32 nearest 1e-8), the
    threshold `λ = 1/512`, the zero word and the word of `-∞`: each is whatever extended real its pattern denotes,
    the same on both sides, so none is ever evaluated. -/
abbrev epsN : EReal := Ideal.ofBits .f32 0x2B8CBCCC#32
abbrev epsA : EReal := Ideal.ofBits .f32 0x322BCC77#32
abbrev lam : EReal := Ideal.ofBits .f32 0x3B000000#32
abbrev zeroW : EReal := Ideal.ofBits .f32 0x00000000#32
abbrev negInf : EReal := Ideal.ofBits .f32 0xFF800000#32

/-- A row's sum of squares. -/
def sumsq {n : ℕ} (x : Fin n → EReal) : EReal := ∑ k, x k * x k

/-- A row scaled to unit length: each entry over `max ‖x‖ epsN`. -/
def nrm {n : ℕ} (x : Fin n → EReal) (c : Fin n) : EReal :=
  Ideal.div (x c) (max (Ideal.sqrt (sumsq x)) epsN)

/-- The inner products of a row with each row of a bank. -/
def scores {n c : ℕ} (x : Fin c → EReal) (M : Fin n → Fin c → EReal) (j : Fin n) : EReal := ∑ k, x k * M j k

/-- The largest of a row's scores (folded from `-∞`). -/
def rowMax {n : ℕ} (s : Fin n → EReal) : EReal := (Finset.univ : Finset (Fin n)).fold max negInf s

/-- The exponential of a score less the row's maximum. -/
def ex {n : ℕ} (s : Fin n → EReal) (j : Fin n) : EReal := Ideal.exp (s j - rowMax s)

/-- The softmax weight. -/
def soft {n : ℕ} (s : Fin n → EReal) (j : Fin n) : EReal := Ideal.div (ex s j) (∑ k, ex s k)

/-- The hard shrinkage of one weight. -/
def shrink (w : EReal) : EReal :=
  Ideal.div (max (w - lam) zeroW * w) (max (w - lam) (-(w - lam)) + epsA)

/-- The shrunk weights renormalised: a token's attention over the bank. -/
def attn {n : ℕ} (s : Fin n → EReal) (j : Fin n) : EReal :=
  Ideal.div (shrink (soft s j)) ((∑ k, shrink (soft s k)) + epsA)

/-- The weighted sum of a bank's rows. -/
def readout {n c : ℕ} (a : Fin n → EReal) (M : Fin n → Fin c → EReal) (q : Fin c) : EReal := ∑ k, a k * M k q

/-- The host's sums start from the zero word: it is `0`. -/
theorem zeroW_add (x : EReal) : zeroW + x = x := by
  show Ideal.ofBits .f32 0x00000000#32 + x = x
  rw [Ideal.ofBits_zero_f32, zero_add]

/-- A fold of `max` from `a` is at least `a`: taking the maximum with `a` once more changes nothing. -/
theorem max_fold_self {n : ℕ} (a : EReal) (s : Fin n → EReal) :
    max a ((Finset.univ : Finset (Fin n)).fold max a s) = (Finset.univ : Finset (Fin n)).fold max a s :=
  max_eq_right ((Finset.le_fold_max a).mpr (Or.inl le_rfl))

/-! ## The two arguments as rows, and the two results -/

/-- Token `r = b·1024 + h·32 + w` of the feature map `z : [32, 768, 32, 32]`: its 768 channels at pixel `(h, w)` of image `b`. -/
def tok (z : (⟨4, ![32, 768, 32, 32]⟩ : Shape).Idx → EReal) (r : Fin 32768) (c : Fin 768) : EReal :=
  z (ix4 (⟨r.val / 1024, by have := r.isLt; omega⟩ : Fin 32) c (⟨r.val / 32 % 32, by omega⟩ : Fin 32) (⟨r.val % 32, by omega⟩ : Fin 32))

/-- Row `j` of the memory bank `mem : [512, 768]`. -/
def mrow (mem : (⟨2, ![512, 768]⟩ : Shape).Idx → EReal) (j : Fin 512) (c : Fin 768) : EReal := mem (ix2 j c)

/-- Token `r`'s attention over the bank. -/
def A (z : (⟨4, ![32, 768, 32, 32]⟩ : Shape).Idx → EReal) (mem : (⟨2, ![512, 768]⟩ : Shape).Idx → EReal) (r : Fin 32768) :
    Fin 512 → EReal :=
  attn (scores (nrm (tok z r)) (fun j => nrm (mrow mem j)))

/-- Token `r`'s readout. -/
def Zh (z : (⟨4, ![32, 768, 32, 32]⟩ : Shape).Idx → EReal) (mem : (⟨2, ![512, 768]⟩ : Shape).Idx → EReal) (r : Fin 32768) :
    Fin 768 → EReal :=
  readout (A z mem r) (mrow mem)

/-- The first result, `z_hat : [32, 768, 32, 32]`: channel `c` of the readout of the token at pixel `(h, w)` of image `b`. -/
def G0 (z : (⟨4, ![32, 768, 32, 32]⟩ : Shape).Idx → EReal) (mem : (⟨2, ![512, 768]⟩ : Shape).Idx → EReal) :
    (⟨4, ![32, 768, 32, 32]⟩ : Shape).Idx → EReal :=
  fun i => Zh z mem (⟨(i 0).val * 1024 + (i 2).val * 32 + (i 3).val, by
      have h0 : (i 0).val < 32 := (i 0).isLt; have h2 : (i 2).val < 32 := (i 2).isLt; have h3 : (i 3).val < 32 := (i 3).isLt; omega⟩ : Fin 32768)
    (⟨(i 1).val, (i 1).isLt⟩ : Fin 768)

/-- The second result, `attn_w : [32, 1024, 512]`: the attention of token `n` of image `b` on bank row `j`. -/
def G1 (z : (⟨4, ![32, 768, 32, 32]⟩ : Shape).Idx → EReal) (mem : (⟨2, ![512, 768]⟩ : Shape).Idx → EReal) :
    (⟨3, ![32, 1024, 512]⟩ : Shape).Idx → EReal :=
  fun i => A z mem (⟨(i 0).val * 1024 + (i 1).val, by
      have h0 : (i 0).val < 32 := (i 0).isLt; have h1 : (i 1).val < 1024 := (i 1).isLt; omega⟩ : Fin 32768)
    (⟨(i 2).val, (i 2).isLt⟩ : Fin 512)

end Cert.Spec

end
-- ==== Proof.LibKeepdims.lean ====
/-
  Column ("keepdims") layouts read at an index: a vector viewed as a one-column matrix, and a one-column matrix
  broadcast along its unit axis. A row reduction kept as a column (`sum(-1, keepdims=True)`) is the first followed,
  where it meets the matrix it was reduced from, by the second.
-/
import Idealize.ShloMosaic.Lib.ValueIdx
import Idealize.ShloMosaic.Lib.Pipeline.Value

namespace Cert.Lib

open Idealize.ShloMosaic Idealize.ShloMosaic.ValueIdx

variable {α : Type}

/-- An `[a]` vector cast to the column `[a, 1]` reads, at `(i, u)`, the vector's entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along its unit axis to `[a, b]` reads, at `(p, q)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.LibRowReduce.lean ====
/-
  Row reductions kept as a column, read at an index, at the ideal values: the sum (or the maximum) of a matrix
  along its rows, viewed as a one-column matrix, holds at `(p, u)` the sum (the fold of `max`) of row `p`.
-/
import Idealize.ShloMosaic.PureOps.Ideal.Laws
import Idealize.ShloMosaic.Lib.ValueIdx
import Idealize.ShloMosaic.Lib.Pipeline.Value
import proofs.«153164_j1425929142868_1_alg».proof.Proof.LibKeepdims

namespace Cert.Lib

open Idealize.ShloMosaic Idealize.ShloMosaic.ValueIdx

variable {φ : FTy}

/-- Inserting the column coordinate `k` into the row index `p` gives `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  match c with
  | ⟨0, _⟩ => rfl
  | ⟨1, _⟩ => rfl

/-- The row sums of an `[a, b]` matrix, kept as an `[a, 1]` column: at `(p, u)` the sum of row `p`. -/
theorem rowSum_col {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (p : Fin a) (u : Fin 1) :
    shapeCast ⟨2, ![a, 1]⟩ (multiReduction .add [1] ⟨1, ![a]⟩ v acc h hφ hacc) hc (ix2 p u)
      = ∑ k : Fin b, v (ix2 p k) := by
  rw [shapeCast_a_a1_apply]
  refine (Ideal.multiReduction_add_single v acc h hφ hacc (ix1 p)).trans ?_
  exact Finset.sum_congr rfl fun k _ => congrArg v (lift_row h p k)

/-- The row maxima likewise: at `(p, u)` the fold of `max`, from the accumulator's value, over row `p`. -/
theorem rowMax_col {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (hc : (⟨1, ![a]⟩ : Shape).ShapeCasts ⟨2, ![a, 1]⟩) (p : Fin a) (u : Fin 1) :
    shapeCast ⟨2, ![a, 1]⟩ (multiReduction .maximumf [1] ⟨1, ![a]⟩ v acc h hφ hacc) hc (ix2 p u)
      = (Finset.univ : Finset (Fin b)).fold max (Ideal.ofBits φ acc) (fun k => v (ix2 p k)) := by
  rw [shapeCast_a_a1_apply]
  refine (Ideal.multiReduction_maximumf_single v acc h hφ hacc (ix1 p)).trans ?_
  have e : (v ∘ h.lift (ix1 p)) = fun k : Fin b => v (ix2 p k) := funext fun k => congrArg v (lift_row h p k)
  rw [e]
  rfl

end Cert.Lib
-- ==== Proof.KernelBody.lean ====
/-
  The kernel body's two stored values read at an index, at the ideal values.

  The body works on a block of 512 tokens `x0 : [512, 768]` against the scaled bank `x1 : [512, 768]` and the raw
  bank `x2 : [512, 768]`. Its stages are named here one by one — the rows scaled to unit length, the cosine scores
  (a matrix product contracting the feature axis of both operands), the row softmax, the shrinkage, the
  renormalisation, the readout (a second matrix product) — and each is read at `(p, j)` as the corresponding row
  function of `Cert.Spec` applied to row `p`: every stage acts on each row by itself.
-/
import proofs.«153164_j1425929142868_1_alg».proof.Proof.Gen.KernelIdeal.Skeleton
import proofs.«153164_j1425929142868_1_alg».proof.Proof.Spec
import proofs.«153164_j1425929142868_1_alg».proof.Proof.LibRowReduce

noncomputable section

namespace Cert.KernelIdeal.Body

open Cert.KernelIdeal Cert.KernelIdeal.Facts₀ Idealize.ShloMosaic Idealize.ShloMosaic.ValueIdx

/-! ## The stages, as the body spells them -/

/-- The token rows scaled to unit length. -/
def unitRows (v0 : Vec Ideal S512x768 .f32) : FVec Ideal S512x768 .f32 :=
  divf (shapeCast S512x768 v0 shapeCasts_S512x768_S512x768)
    (broadcastTo S512x768
      (maximumf
        (sqrt (shapeCast S512x1
          (multiReduction .add [1] S512
            (mulf (shapeCast S512x768 v0 shapeCasts_S512x768_S512x768) (shapeCast S512x768 v0 shapeCasts_S512x768_S512x768))
            0x00000000#32 reduces_S512x768_S512 (.inl rfl) rfl)
          shapeCasts_S512_S512x1))
        (broadcast S512x1 (Scalar.ofBits .f32 0x2B8CBCCC#32)))
      broadcasts_S512x1_S512x768)

/-- The cosine scores: the scaled tokens against the scaled bank, contracting the feature axis of both. -/
def cosScores (v0 : Vec Ideal S512x768 .f32) (v11 : Vec Ideal S512x768 .bf16) : FVec Ideal S512x512 .f32 :=
  matmul dot_S512x768_S512x768_S512x512_1_1_0_0_n_n none (truncf .bf16 (unitRows v0) bitsLt_bf16_f32)
    (shapeCast S512x768 v11 shapeCasts_S512x768_S512x768 : FVec Ideal S512x768 .bf16) (constant S512x512 .f32 0x00000000#32)

/-- The exponentials of the scores less their row maximum. -/
def expRows (s : FVec Ideal S512x512 .f32) : FVec Ideal S512x512 .f32 :=
  exp (subf s (broadcastTo S512x512
    (shapeCast S512x1 (multiReduction .maximumf [1] S512 s 0xFF800000#32 reduces_S512x512_S512 (.inl rfl) rfl) shapeCasts_S512_S512x1)
    broadcasts_S512x1_S512x512))

/-- The row softmax. -/
def softRows (s : FVec Ideal S512x512 .f32) : FVec Ideal S512x512 .f32 :=
  divf (expRows s) (broadcastTo S512x512
    (shapeCast S512x1 (multiReduction .add [1] S512 (expRows s) 0x00000000#32 reduces_S512x512_S512 (.inl rfl) rfl) shapeCasts_S512_S512x1)
    broadcasts_S512x1_S512x512)

/-- The hard shrinkage, entry by entry. -/
def shrinkAll (w : FVec Ideal S512x512 .f32) : FVec Ideal S512x512 .f32 :=
  divf
    (mulf (maximumf (subf w (broadcast S512x512 (Scalar.ofBits .f32 0x3B000000#32))) (broadcast S512x512 (Scalar.ofBits .f32 0x00000000#32))) w)
    (addf (absf (subf w (broadcast S512x512 (Scalar.ofBits .f32 0x3B000000#32)))) (broadcast S512x512 (Scalar.ofBits .f32 0x322BCC77#32)))

/-- The rows renormalised by their sum plus `ε`. -/
def renorm (a : FVec Ideal S512x512 .f32) : FVec Ideal S512x512 .f32 :=
  divf a (broadcastTo S512x512
    (addf (shapeCast S512x1 (multiReduction .add [1] S512 a 0x00000000#32 reduces_S512x512_S512 (.inl rfl) rfl) shapeCasts_S512_S512x1)
      (broadcast S512x1 (Scalar.ofBits .f32 0x322BCC77#32)))
    broadcasts_S512x1_S512x512)

/-- The stored attention block is the stages composed. -/
theorem pay2_eq (v0 : Vec Ideal S512x768 .f32) (v11 : Vec Ideal S512x768 .bf16) :
    Gen.k0_pay2 (F := Ideal) v0 v11 = renorm (shrinkAll (softRows (cosScores v0 v11))) := rfl

/-- The stored readout block is the attention block against the raw bank, contracting the bank's row axis. -/
theorem pay1_eq (v0 : Vec Ideal S512x768 .f32) (v11 : Vec Ideal S512x768 .bf16) (v40 : Vec Ideal S512x768 .bf16) :
    Gen.k0_pay1 (F := Ideal) (Gen.k0_pay3 v0 v11) v40
      = matmul dot_S512x512_S512x768_S512x768_1_0_0_1_n_n none (truncf .bf16 (Gen.k0_pay2 (F := Ideal) v0 v11) bitsLt_bf16_f32)
          (shapeCast S512x768 v40 shapeCasts_S512x768_S512x768 : FVec Ideal S512x768 .bf16) (constant S512x768 .f32 0x00000000#32) := rfl

/-! ## Each stage read at an index: every stage acts on each row by itself -/

theorem sqrt_at {s : Shape} {φ : FTy} (a : FVec Ideal s φ) (i : s.Idx) : sqrt a i = Ideal.sqrt (a i) := rfl
theorem exp_at {s : Shape} {φ : FTy} (a : FVec Ideal s φ) (i : s.Idx) : exp a i = Ideal.exp (a i) := rfl
theorem absf_at {s : Shape} {φ : FTy} (a : FVec Ideal s φ) (i : s.Idx) : absf a i = max (a i) (-(a i)) := rfl

/-- Row `p` of the scaled tokens is row `p` of the block scaled to unit length. -/
theorem unitRows_at (v0 : Vec Ideal S512x768 .f32) (p : Fin 512) (c : Fin 768) :
    unitRows v0 (ix2 p c) = Cert.Spec.nrm (fun k => v0 (ix2 p k)) c := by
  unfold unitRows
  simp only [shapeCast_self]
  rw [divf_apply, Cert.Lib.broadcastTo_a1_ab_apply, maximumf_apply, sqrt_at,
    Cert.Lib.rowSum_col _ 0x00000000#32 reduces_S512x768_S512 (.inl rfl) rfl shapeCasts_S512_S512x1 p 0]
  rfl

/-- The first product's operand indices: the token row and the bank row, both at the contracted feature. -/
theorem lhs1_0 (i : S512x512.Idx) (q : dot_S512x768_S512x768_S512x512_1_1_0_0_n_n.contr.Idx) :
    (dot_S512x768_S512x768_S512x512_1_1_0_0_n_n.lhsIdx i q 0).val = (i 0).val := by
  unfold DotDims.lhsIdx
  rw [dif_neg (show ¬(0 : Fin S512x768.rank) ∈ dot_S512x768_S512x768_S512x512_1_1_0_0_n_n.lhsBatch by decide),
    dif_pos (show (0 : Fin S512x768.rank) ∈ dot_S512x768_S512x768_S512x512_1_1_0_0_n_n.lhsNonContracting by decide)]
  rfl
theorem lhs1_1 (i : S512x512.Idx) (q : dot_S512x768_S512x768_S512x512_1_1_0_0_n_n.contr.Idx) :
    (dot_S512x768_S512x768_S512x512_1_1_0_0_n_n.lhsIdx i q 1).val = (q ⟨0, by decide⟩).val :=
  dot_S512x768_S512x768_S512x512_1_1_0_0_n_n.lhsIdx_val_of_single rfl i q
theorem rhs1_0 (i : S512x512.Idx) (q : dot_S512x768_S512x768_S512x512_1_1_0_0_n_n.contr.Idx) :
    (dot_S512x768_S512x768_S512x512_1_1_0_0_n_n.rhsIdx i q 0).val = (i 1).val := by
  unfold DotDims.rhsIdx
  rw [dif_neg (show ¬(0 : Fin S512x768.rank) ∈ dot_S512x768_S512x768_S512x512_1_1_0_0_n_n.rhsBatch by decide),
    dif_pos (show (0 : Fin S512x768.rank) ∈ dot_S512x768_S512x768_S512x512_1_1_0_0_n_n.rhsNonContracting by decide)]
  rfl
theorem rhs1_1 (i : S512x512.Idx) (q : dot_S512x768_S512x768_S512x512_1_1_0_0_n_n.contr.Idx) :
    (dot_S512x768_S512x768_S512x512_1_1_0_0_n_n.rhsIdx i q 1).val = (q ⟨0, by decide⟩).val :=
  dot_S512x768_S512x768_S512x512_1_1_0_0_n_n.rhsIdx_val_of_single rfl i q

/-- A product contracting the second axis of both operands, into the zero matrix: entry `(p, j)` is the inner
    product of row `p` of the left operand with row `j` of the right. -/
theorem rowsDot_at (l r : FVec Ideal S512x768 .bf16) (p j : Fin 512) :
    matmul dot_S512x768_S512x768_S512x512_1_1_0_0_n_n none l r (constant S512x512 .f32 0x00000000#32) (ix2 p j)
      = ∑ k : Fin 768, l (ix2 p k) * r (ix2 j k) := by
  simp only [matmul]
  rw [Ideal.matmul_constant_zero_apply,
    ← Equiv.sum_comp (contrEquiv1 dot_S512x768_S512x768_S512x512_1_1_0_0_n_n 768 rfl rfl).symm]
  refine Finset.sum_congr rfl fun k _ => ?_
  have hk := contrEquiv1_symm_val dot_S512x768_S512x768_S512x512_1_1_0_0_n_n 768 rfl rfl k
  have el : dot_S512x768_S512x768_S512x512_1_1_0_0_n_n.lhsIdx (ix2 p j)
      ((contrEquiv1 dot_S512x768_S512x768_S512x512_1_1_0_0_n_n 768 rfl rfl).symm k) = ix2 p k :=
    funext fun a => Fin.ext (by
      match a with
      | ⟨0, _⟩ => exact lhs1_0 _ _
      | ⟨1, _⟩ => exact (lhs1_1 _ _).trans hk)
  have er : dot_S512x768_S512x768_S512x512_1_1_0_0_n_n.rhsIdx (ix2 p j)
      ((contrEquiv1 dot_S512x768_S512x768_S512x512_1_1_0_0_n_n 768 rfl rfl).symm k) = ix2 j k :=
    funext fun a => Fin.ext (by
      match a with
      | ⟨0, _⟩ => exact rhs1_0 _ _
      | ⟨1, _⟩ => exact (rhs1_1 _ _).trans hk)
  rw [el, er]

/-- The cosine scores of token `p` against bank row `j`. -/
theorem cosScores_at (v0 : Vec Ideal S512x768 .f32) (v11 : Vec Ideal S512x768 .bf16) (p j : Fin 512) :
    cosScores v0 v11 (ix2 p j) = Cert.Spec.scores (Cert.Spec.nrm (fun k => v0 (ix2 p k))) (fun j' k => v11 (ix2 j' k)) j := by
  unfold cosScores
  rw [shapeCast_self, rowsDot_at]
  exact Finset.sum_congr rfl fun k _ => congrArg (· * v11 (ix2 j k)) (unitRows_at v0 p k)

/-- The exponentials of row `p`. -/
theorem expRows_at (s : FVec Ideal S512x512 .f32) (p j : Fin 512) :
    expRows s (ix2 p j) = Cert.Spec.ex (fun j' => s (ix2 p j')) j := by
  unfold expRows
  rw [exp_at, subf_apply, Cert.Lib.broadcastTo_a1_ab_apply,
    Cert.Lib.rowMax_col _ 0xFF800000#32 reduces_S512x512_S512 (.inl rfl) rfl shapeCasts_S512_S512x1 p 0]
  rfl

/-- The softmax of row `p`. -/
theorem softRows_at (s : FVec Ideal S512x512 .f32) (p j : Fin 512) :
    softRows s (ix2 p j) = Cert.Spec.soft (fun j' => s (ix2 p j')) j := by
  unfold softRows
  rw [divf_apply, Cert.Lib.broadcastTo_a1_ab_apply,
    Cert.Lib.rowSum_col _ 0x00000000#32 reduces_S512x512_S512 (.inl rfl) rfl shapeCasts_S512_S512x1 p 0]
  simp only [expRows_at]
  rfl

/-- The shrinkage is entry by entry. -/
theorem shrinkAll_at (w : FVec Ideal S512x512 .f32) (i : S512x512.Idx) :
    shrinkAll w i = Cert.Spec.shrink (w i) := rfl

/-- The renormalisation of row `p`. -/
theorem renorm_at (a : FVec Ideal S512x512 .f32) (p j : Fin 512) :
    renorm a (ix2 p j) = Ideal.div (a (ix2 p j)) ((∑ k : Fin 512, a (ix2 p k)) + Cert.Spec.epsA) := by
  unfold renorm
  rw [divf_apply, Cert.Lib.broadcastTo_a1_ab_apply, addf_apply,
    Cert.Lib.rowSum_col _ 0x00000000#32 reduces_S512x512_S512 (.inl rfl) rfl shapeCasts_S512_S512x1 p 0]
  rfl

/-- THE ATTENTION BLOCK at `(p, j)`: token `p`'s attention on bank row `j`, a function of row `p` of the token
    block and of the scaled bank alone. -/
theorem pay2_at (v0 : Vec Ideal S512x768 .f32) (v11 : Vec Ideal S512x768 .bf16) (p j : Fin 512) :
    Gen.k0_pay2 (F := Ideal) v0 v11 (ix2 p j)
      = Cert.Spec.attn (Cert.Spec.scores (Cert.Spec.nrm (fun k => v0 (ix2 p k))) (fun j' k => v11 (ix2 j' k))) j := by
  rw [pay2_eq, renorm_at]
  simp only [shrinkAll_at, softRows_at]
  have hs : (fun j' => cosScores v0 v11 (ix2 p j'))
      = Cert.Spec.scores (Cert.Spec.nrm (fun k => v0 (ix2 p k))) (fun j' k => v11 (ix2 j' k)) :=
    funext fun j' => cosScores_at v0 v11 p j'
  rw [hs]
  rfl

/-- The second product's operand indices: the attention row at the contracted bank row, the bank row at the column. -/
theorem lhs2_0 (i : S512x768.Idx) (q : dot_S512x512_S512x768_S512x768_1_0_0_1_n_n.contr.Idx) :
    (dot_S512x512_S512x768_S512x768_1_0_0_1_n_n.lhsIdx i q 0).val = (i 0).val := by
  unfold DotDims.lhsIdx
  rw [dif_neg (show ¬(0 : Fin S512x512.rank) ∈ dot_S512x512_S512x768_S512x768_1_0_0_1_n_n.lhsBatch by decide),
    dif_pos (show (0 : Fin S512x512.rank) ∈ dot_S512x512_S512x768_S512x768_1_0_0_1_n_n.lhsNonContracting by decide)]
  rfl
theorem lhs2_1 (i : S512x768.Idx) (q : dot_S512x512_S512x768_S512x768_1_0_0_1_n_n.contr.Idx) :
    (dot_S512x512_S512x768_S512x768_1_0_0_1_n_n.lhsIdx i q 1).val = (q ⟨0, by decide⟩).val :=
  dot_S512x512_S512x768_S512x768_1_0_0_1_n_n.lhsIdx_val_of_single rfl i q
theorem rhs2_0 (i : S512x768.Idx) (q : dot_S512x512_S512x768_S512x768_1_0_0_1_n_n.contr.Idx) :
    (dot_S512x512_S512x768_S512x768_1_0_0_1_n_n.rhsIdx i q 0).val = (q ⟨0, by decide⟩).val :=
  dot_S512x512_S512x768_S512x768_1_0_0_1_n_n.rhsIdx_val_of_single rfl i q
theorem rhs2_1 (i : S512x768.Idx) (q : dot_S512x512_S512x768_S512x768_1_0_0_1_n_n.contr.Idx) :
    (dot_S512x512_S512x768_S512x768_1_0_0_1_n_n.rhsIdx i q 1).val = (i 1).val := by
  unfold DotDims.rhsIdx
  rw [dif_neg (show ¬(1 : Fin S512x768.rank) ∈ dot_S512x512_S512x768_S512x768_1_0_0_1_n_n.rhsBatch by decide),
    dif_pos (show (1 : Fin S512x768.rank) ∈ dot_S512x512_S512x768_S512x768_1_0_0_1_n_n.rhsNonContracting by decide)]
  rfl

/-- A plain matrix product into the zero matrix: entry `(p, c)` is row `p` of the left operand against column `c`
    of the right. -/
theorem rowsCols_at (l : FVec Ideal S512x512 .bf16) (r : FVec Ideal S512x768 .bf16) (p : Fin 512) (c : Fin 768) :
    matmul dot_S512x512_S512x768_S512x768_1_0_0_1_n_n none l r (constant S512x768 .f32 0x00000000#32) (ix2 p c)
      = ∑ k : Fin 512, l (ix2 p k) * r (ix2 k c) := by
  simp only [matmul]
  rw [Ideal.matmul_constant_zero_apply,
    ← Equiv.sum_comp (contrEquiv1 dot_S512x512_S512x768_S512x768_1_0_0_1_n_n 512 rfl rfl).symm]
  refine Finset.sum_congr rfl fun k _ => ?_
  have hk := contrEquiv1_symm_val dot_S512x512_S512x768_S512x768_1_0_0_1_n_n 512 rfl rfl k
  have el : dot_S512x512_S512x768_S512x768_1_0_0_1_n_n.lhsIdx (ix2 p c)
      ((contrEquiv1 dot_S512x512_S512x768_S512x768_1_0_0_1_n_n 512 rfl rfl).symm k) = ix2 p k :=
    funext fun a => Fin.ext (by
      match a with
      | ⟨0, _⟩ => exact lhs2_0 _ _
      | ⟨1, _⟩ => exact (lhs2_1 _ _).trans hk)
  have er : dot_S512x512_S512x768_S512x768_1_0_0_1_n_n.rhsIdx (ix2 p c)
      ((contrEquiv1 dot_S512x512_S512x768_S512x768_1_0_0_1_n_n 512 rfl rfl).symm k) = ix2 k c :=
    funext fun a => Fin.ext (by
      match a with
      | ⟨0, _⟩ => exact (rhs2_0 _ _).trans hk
      | ⟨1, _⟩ => exact rhs2_1 _ _)
  rw [el, er]

/-- THE READOUT BLOCK at `(p, c)`: token `p`'s attention against column `c` of the raw bank. -/
theorem pay1_at (v0 : Vec Ideal S512x768 .f32) (v11 : Vec Ideal S512x768 .bf16) (v40 : Vec Ideal S512x768 .bf16)
    (p : Fin 512) (c : Fin 768) :
    Gen.k0_pay1 (F := Ideal) (Gen.k0_pay3 v0 v11) v40 (ix2 p c)
      = Cert.Spec.readout
          (Cert.Spec.attn (Cert.Spec.scores (Cert.Spec.nrm (fun k => v0 (ix2 p k))) (fun j' k => v11 (ix2 j' k))))
          (fun k c' => v40 (ix2 k c')) c := by
  rw [pay1_eq, shapeCast_self, rowsCols_at]
  exact Finset.sum_congr rfl fun k _ => congrArg (· * v40 (ix2 k c)) (pay2_at v0 v11 p k)

end Cert.KernelIdeal.Body

end
-- ==== Proof.Layouts.lean ====
/-
  The three changes of layout between the feature map `[32, 768, 32, 32]` (image, channel, row, column) and the
  token matrices `[32768, ·]`, read at an index. Token `r` is pixel `(r / 32 % 32, r % 32)` of image `r / 1024`:
  the feature map is transposed to channels-last and flattened, and back; the attention matrix is only re-grouped.
-/
import Idealize.ShloMosaic.Lib.ValueIdx
import Idealize.ShloMosaic.Lib.Pipeline.Value

namespace Cert.Layout

open Idealize.ShloMosaic Idealize.ShloMosaic.ValueIdx

variable {α : Type}

/-- Channels-last, then flattened to tokens: entry `(r, k)` is channel `k` of token `r`'s pixel. -/
theorem tokens_apply (x : (⟨4, ![32, 768, 32, 32]⟩ : Shape).Idx → α)
    (hT : (⟨4, ![32, 768, 32, 32]⟩ : Shape).Transposes [0, 2, 3, 1] ⟨4, ![32, 32, 32, 768]⟩)
    (hC : (⟨4, ![32, 32, 32, 768]⟩ : Shape).ShapeCasts ⟨2, ![32768, 768]⟩) (r : Fin 32768) (k : Fin 768) :
    shapeCast ⟨2, ![32768, 768]⟩ (transpose ⟨4, ![32, 32, 32, 768]⟩ [0, 2, 3, 1] x hT) hC (ix2 r k)
      = x (ix4 (⟨r.val / 1024, by have := r.isLt; omega⟩ : Fin 32) k (⟨r.val / 32 % 32, by omega⟩ : Fin 32) (⟨r.val % 32, by omega⟩ : Fin 32)) := by
  refine (shapeCast_apply _ hC (ix2 r k)
    (ix4 (⟨r.val / 1024, by have := r.isLt; omega⟩ : Fin 32) (⟨r.val / 32 % 32, by omega⟩ : Fin 32) (⟨r.val % 32, by omega⟩ : Fin 32) k) (by
      rewrite [Shape.rowMajor_val_four, Shape.rowMajor_val_two]
      show ((r.val / 1024 * 32 + r.val / 32 % 32) * 32 + r.val % 32) * 768 + k.val = r.val * 768 + k.val
      have := r.isLt
      omega)).trans ?_
  exact transpose_apply [0, 2, 3, 1] x hT _ _ (fun b => match b with
    | ⟨0, _⟩ => rfl
    | ⟨1, _⟩ => rfl
    | ⟨2, _⟩ => rfl
    | ⟨3, _⟩ => rfl)

/-- A token matrix un-flattened and brought back to channels-first: entry `(b, c, h, w)` is column `c` of token
    `b·1024 + h·32 + w`. -/
theorem untokens_apply (y : (⟨2, ![32768, 768]⟩ : Shape).Idx → α)
    (hC : (⟨2, ![32768, 768]⟩ : Shape).ShapeCasts ⟨4, ![32, 32, 32, 768]⟩)
    (hT : (⟨4, ![32, 32, 32, 768]⟩ : Shape).Transposes [0, 3, 1, 2] ⟨4, ![32, 768, 32, 32]⟩)
    (b : Fin 32) (c : Fin 768) (h w : Fin 32) :
    transpose ⟨4, ![32, 768, 32, 32]⟩ [0, 3, 1, 2] (shapeCast ⟨4, ![32, 32, 32, 768]⟩ y hC) hT (ix4 b c h w)
      = y (ix2 (⟨b.val * 1024 + h.val * 32 + w.val, by have := b.isLt; have := h.isLt; have := w.isLt; omega⟩ : Fin 32768) c) := by
  refine (transpose_apply [0, 3, 1, 2] _ hT (ix4 b c h w) (ix4 b h w c) (fun a => match a with
    | ⟨0, _⟩ => rfl
    | ⟨1, _⟩ => rfl
    | ⟨2, _⟩ => rfl
    | ⟨3, _⟩ => rfl)).trans ?_
  exact shapeCast_apply y hC (ix4 b h w c) _ (by
    rewrite [Shape.rowMajor_val_two, Shape.rowMajor_val_four]
    show (b.val * 1024 + h.val * 32 + w.val) * 768 + c.val = ((b.val * 32 + h.val) * 32 + w.val) * 768 + c.val
    omega)

/-- The attention matrix re-grouped by image: entry `(b, n, j)` is column `j` of token `b·1024 + n`. -/
theorem regroup_apply (a : (⟨2, ![32768, 512]⟩ : Shape).Idx → α)
    (hC : (⟨2, ![32768, 512]⟩ : Shape).ShapeCasts ⟨3, ![32, 1024, 512]⟩) (b : Fin 32) (n : Fin 1024) (j : Fin 512) :
    shapeCast ⟨3, ![32, 1024, 512]⟩ a hC (ix3 b n j)
      = a (ix2 (⟨b.val * 1024 + n.val, by have := b.isLt; have := n.isLt; omega⟩ : Fin 32768) j) :=
  shapeCast_apply a hC (ix3 b n j) _ (by
    rewrite [Shape.rowMajor_val_two, Shape.rowMajor_val_three]
    show (b.val * 1024 + n.val) * 512 + j.val = (b.val * 1024 + n.val) * 512 + j.val
    rfl)

end Cert.Layout
-- ==== Proof.BankRows.lean ====
/-
  The memory bank scaled to unit rows, read at an index. Both programs compute it by the same host operations (the
  row sums of squares from zero, their square roots kept as a column, the floor, the division); entry `(j, k)` is
  entry `k` of row `j` scaled to unit length.
-/
import proofs.«153164_j1425929142868_1_alg».proof.Proof.Gen.ReferenceIdeal.Read
import proofs.«153164_j1425929142868_1_alg».proof.Proof.Spec

noncomputable section

namespace Cert.ReferenceIdeal.Bank

open Cert.ReferenceIdeal Cert.ReferenceIdeal.Read Idealize.ShloMosaic Idealize.ShloMosaic.ValueIdx

/-- The scaled bank at `(j, k)`. -/
theorem bank_at (mem : (⟨S512x768, .f32⟩ : BufTy).Contents (Elt Ideal)) (j : Fin 512) (k : Fin 768) :
    val_main_v17 (F := Ideal) mem (ix2 j k) = Cert.Spec.nrm (Cert.Spec.mrow mem j) k := by
  rw [val_main_v17_apply, val_main_v16_apply, val_main_v15_apply, val_main_v13_apply, val_main_v12_apply,
    val_main_v11_apply, val_main_v14_apply, val_main_cst_2_apply, val_main_cst_1_apply]
  have hi : ∀ k' : Fin 768, idx_main_v11 (idx_main_v12 (idx_main_v16 (ix2 j k))) k' = ix2 j k' := fun k' =>
    funext fun a => by
      match a with
      | ⟨0, _⟩ => rfl
      | ⟨1, _⟩ => rfl
  simp only [hi, val_main_v10_apply]
  show Ideal.div (mem (ix2 j k)) (max (Ideal.sqrt (Cert.Spec.zeroW + ∑ k' : Fin 768, mem (ix2 j k') * mem (ix2 j k'))) Cert.Spec.epsN) = _
  rw [Cert.Spec.zeroW_add]
  rfl

end Cert.ReferenceIdeal.Bank

end
-- ==== Proof.KernelHost.lean ====
/-
  What the kernel's region finds in its three input arrays, read at an index: the host lines before the call lay
  the feature map out as a token matrix (channels last, flattened), scale the memory bank to unit rows, and pass
  the raw bank through a change of float format, which is the identity on the extended reals.
-/
import proofs.«153164_j1425929142868_1_alg».proof.Proof.Gen.KernelIdeal.Frame
import proofs.«153164_j1425929142868_1_alg».proof.Proof.Layouts
import proofs.«153164_j1425929142868_1_alg».proof.Proof.BankRows
import Idealize.ShloMosaic.Lib.StableHlo.Run

noncomputable section

namespace Cert.KernelIdeal.HostPre

open Cert.KernelIdeal Cert.KernelIdeal.Facts₀ Idealize.ShloMosaic Idealize.ShloMosaic.TcCoe Idealize.SL.Sem
open Idealize.ShloMosaic.ValueIdx

variable (m : (ℓ : Loc nD τ sig) → Buf (Elt Ideal) ℓ)

/-- The token matrix: the feature map transposed to channels-last and flattened. -/
theorem tokens_eq (c : Dev nD) : (Gen.V m c main_v1 : S32768x768.Idx → EReal)
    = shapeCast S32768x768 (transpose S32x32x32x768 [0, 2, 3, 1] (m ((c : Thread nD τ).loc main_arg0))
        transposes_S32x768x32x32_S32x32x32x768_0_2_3_1) shapeCasts_S32x32x32x768_S32768x768 := by
  show StableHlo.after Gen.hostOps0 (fun b => m (c, b)) (Proc.devRef .tc main_v1) = _
  after_results
  rfl

/-- Entry `(r, k)` of the token matrix is channel `k` of token `r`. -/
theorem tokens_at (c : Dev nD) (r : Fin 32768) (k : Fin 768) :
    (Gen.V m c main_v1 : S32768x768.Idx → EReal) (ix2 r k) = Cert.Spec.tok (m ((c : Thread nD τ).loc main_arg0)) r k := by
  rw [tokens_eq]
  exact Cert.Layout.tokens_apply _ _ _ r k

/-- The scaled bank is computed by the very operations the reference uses (then passed through a change of format). -/
theorem bank_eq (c : Dev nD) : (Gen.V m c main_v10 : S512x768.Idx → EReal)
    = Cert.ReferenceIdeal.Read.val_main_v17 (F := Ideal) (m ((c : Thread nD τ).loc main_arg1)) := by
  show StableHlo.after Gen.hostOps0 (fun b => m (c, b)) (Proc.devRef .tc main_v10) = _
  after_results
  rfl

/-- Entry `(j, k)` of the scaled bank is entry `k` of bank row `j` scaled to unit length. -/
theorem bank_at (c : Dev nD) (j : Fin 512) (k : Fin 768) :
    (Gen.V m c main_v10 : S512x768.Idx → EReal) (ix2 j k)
      = Cert.Spec.nrm (Cert.Spec.mrow (m ((c : Thread nD τ).loc main_arg1)) j) k := by
  rw [bank_eq]
  exact Cert.ReferenceIdeal.Bank.bank_at _ j k

/-- The raw bank, as the region finds it, is the argument itself. -/
theorem rawBank_eq (c : Dev nD) : (Gen.V m c main_v11 : S512x768.Idx → EReal) = m ((c : Thread nD τ).loc main_arg1) := by
  show StableHlo.after Gen.hostOps0 (fun b => m (c, b)) (Proc.devRef .tc main_v11) = _
  after_results
  rfl

end Cert.KernelIdeal.HostPre

end
-- ==== Proof.TokenArrays.lean ====
/-
  The two results as token matrices, before they are laid out as the program returns them: row `r` of the readout
  matrix `[32768, 768]` is token `r`'s readout, row `r` of the attention matrix `[32768, 512]` its attention.
-/
import proofs.«153164_j1425929142868_1_alg».proof.Proof.Spec

noncomputable section

namespace Cert.Spec

open Idealize.ShloMosaic Idealize.ShloMosaic.ValueIdx

/-- The readout matrix. -/
def Z2 (z : (⟨4, ![32, 768, 32, 32]⟩ : Shape).Idx → EReal) (mem : (⟨2, ![512, 768]⟩ : Shape).Idx → EReal) :
    (⟨2, ![32768, 768]⟩ : Shape).Idx → EReal :=
  fun i => Zh z mem (⟨(i 0).val, idx2_lt0 i⟩ : Fin 32768) (⟨(i 1).val, idx2_lt1 i⟩ : Fin 768)

/-- The attention matrix. -/
def A2 (z : (⟨4, ![32, 768, 32, 32]⟩ : Shape).Idx → EReal) (mem : (⟨2, ![512, 768]⟩ : Shape).Idx → EReal) :
    (⟨2, ![32768, 512]⟩ : Shape).Idx → EReal :=
  fun i => A z mem (⟨(i 0).val, idx2_lt0 i⟩ : Fin 32768) (⟨(i 1).val, idx2_lt1 i⟩ : Fin 512)

theorem Z2_at (z : (⟨4, ![32, 768, 32, 32]⟩ : Shape).Idx → EReal) (mem : (⟨2, ![512, 768]⟩ : Shape).Idx → EReal)
    (r : Fin 32768) (c : Fin 768) : Z2 z mem (ix2 r c) = Zh z mem r c := rfl

theorem A2_at (z : (⟨4, ![32, 768, 32, 32]⟩ : Shape).Idx → EReal) (mem : (⟨2, ![512, 768]⟩ : Shape).Idx → EReal)
    (r : Fin 32768) (j : Fin 512) : A2 z mem (ix2 r j) = A z mem r j := rfl

end Cert.Spec

end
-- ==== Proof.KernelValue.lean ====
/-
  The kernel's two output arrays after the region, as functions of the two arguments.

  Grid point `t` works on tokens `512·t … 512·t + 511`: its input block of the token matrix is those rows, the two
  banks are whole at every point, and what it writes back — rows `512·t …` of the readout and attention matrices —
  is, entry by entry, the token's readout and attention (`KernelBody`). The 64 points' blocks tile both arrays, so
  each array ends as one function of the arguments: row `r` is token `r`'s.
-/
import proofs.«153164_j1425929142868_1_alg».proof.Proof.Gen.KernelIdeal.Frame
import proofs.«153164_j1425929142868_1_alg».proof.Proof.KernelBody
import proofs.«153164_j1425929142868_1_alg».proof.Proof.KernelHost
import proofs.«153164_j1425929142868_1_alg».proof.Proof.TokenArrays
import Idealize.ShloMosaic.Lib.Pipeline.Value

noncomputable section

namespace Cert.KernelIdeal.Arrays

open Cert.KernelIdeal Cert.KernelIdeal.Facts₀ Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The index maps over the grid: the token block, the readout block and the attention block are block `t` of
    their arrays' rows at point `t`; the two banks are whole. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Token `512·t + p`, row `p` of point `t`'s blocks. -/
def rowOf (t : Fin cfg0.N) (p : Fin 512) : Fin 32768 :=
  ⟨t.val * 512 + p.val, by have h : t.val < grid0.N := t.isLt; have hN : grid0.N = 64 := Gen.N_0; have := p.isLt; omega⟩

/-! ## The input blocks -/

/-- Row `p` of point `t`'s token block is token `512·t + p`. -/
theorem tokBlock_at (c : Dev nD) (t : Fin cfg0.N) (p : Fin 512) (k : Fin 768) :
    (Gen.iblk m c 0 t : Vec Ideal S512x768 .f32) (ix2 p k)
      = Cert.Spec.tok (m ((c : Thread nD τ).loc main_arg0)) (rowOf t p) k := by
  obtain ⟨e0, e1, -⟩ := idx_facts t
  show (Gen.V m c main_v1 : S32768x768.Idx → EReal) (((cfg0.win 0).blk t).view.emb (ix2 p k)) = _
  have e : ((cfg0.win 0).blk t).view.emb (ix2 p k) = (ix2 (rowOf t p) k : S32768x768.Idx) := by
    funext a; apply Fin.ext
    match a with
    | ⟨0, _⟩ => show win0_0.index t (0 : Fin 2) * 512 + 1 * p.val = t.val * 512 + p.val; omega
    | ⟨1, _⟩ => show win0_0.index t (1 : Fin 2) * 768 + 1 * k.val = k.val; omega
  rw [e]
  exact HostPre.tokens_at m c (rowOf t p) k

/-- The scaled bank's block is the whole scaled bank at every point. -/
theorem bankBlock_at (c : Dev nD) (t : Fin cfg0.N) (j : Fin 512) (k : Fin 768) :
    (Gen.iblk m c 1 t : Vec Ideal S512x768 .bf16) (ix2 j k)
      = Cert.Spec.nrm (Cert.Spec.mrow (m ((c : Thread nD τ).loc main_arg1)) j) k := by
  obtain ⟨-, -, e0, e1, -⟩ := idx_facts t
  show (Gen.V m c main_v10 : S512x768.Idx → EReal) (((cfg0.win 1).blk t).view.emb (ix2 j k)) = _
  have e : ((cfg0.win 1).blk t).view.emb (ix2 j k) = (ix2 j k : S512x768.Idx) := by
    funext a; apply Fin.ext
    match a with
    | ⟨0, _⟩ => show win0_1.index t (0 : Fin 2) * 512 + 1 * j.val = j.val; omega
    | ⟨1, _⟩ => show win0_1.index t (1 : Fin 2) * 768 + 1 * k.val = k.val; omega
  rw [e]
  exact HostPre.bank_at m c j k

/-- The raw bank's block is the whole raw bank at every point. -/
theorem rawBlock_at (c : Dev nD) (t : Fin cfg0.N) (j : Fin 512) (k : Fin 768) :
    (Gen.iblk m c 2 t : Vec Ideal S512x768 .bf16) (ix2 j k)
      = Cert.Spec.mrow (m ((c : Thread nD τ).loc main_arg1)) j k := by
  obtain ⟨-, -, -, -, e0, e1, -⟩ := idx_facts t
  show (Gen.V m c main_v11 : S512x768.Idx → EReal) (((cfg0.win 2).blk t).view.emb (ix2 j k)) = _
  have e : ((cfg0.win 2).blk t).view.emb (ix2 j k) = (ix2 j k : S512x768.Idx) := by
    funext a; apply Fin.ext
    match a with
    | ⟨0, _⟩ => show win0_2.index t (0 : Fin 2) * 512 + 1 * j.val = j.val; omega
    | ⟨1, _⟩ => show win0_2.index t (1 : Fin 2) * 768 + 1 * k.val = k.val; omega
  rw [e, HostPre.rawBank_eq]
  rfl

/-- The score row of token `512·t + p`, from the blocks. -/
theorem scoreRow_eq (c : Dev nD) (t : Fin cfg0.N) (p : Fin 512) :
    Cert.Spec.scores (Cert.Spec.nrm (fun k => (Gen.iblk m c 0 t : Vec Ideal S512x768 .f32) (ix2 p k)))
        (fun j' k => (Gen.iblk m c 1 t : Vec Ideal S512x768 .bf16) (ix2 j' k))
      = Cert.Spec.scores (Cert.Spec.nrm (Cert.Spec.tok (m ((c : Thread nD τ).loc main_arg0)) (rowOf t p)))
          (fun j => Cert.Spec.nrm (Cert.Spec.mrow (m ((c : Thread nD τ).loc main_arg1)) j)) := by
  have h0 : (fun k => (Gen.iblk m c 0 t : Vec Ideal S512x768 .f32) (ix2 p k))
      = Cert.Spec.tok (m ((c : Thread nD τ).loc main_arg0)) (rowOf t p) := funext fun k => tokBlock_at m c t p k
  have h1 : (fun j' k => (Gen.iblk m c 1 t : Vec Ideal S512x768 .bf16) (ix2 j' k))
      = fun j => Cert.Spec.nrm (Cert.Spec.mrow (m ((c : Thread nD τ).loc main_arg1)) j) :=
    funext fun j' => funext fun k => bankBlock_at m c t j' k
  rw [h0, h1]

/-! ## What a point writes back -/

/-- The attention block of point `t` at `(p, j)`. -/
theorem attnBlock_at (c : Dev nD) (t : Fin cfg0.N) (p j : Fin 512) :
    Gen.k0_pay2 (F := Ideal) (Gen.iblk m c 0 t) (Gen.iblk m c 1 t) (ix2 p j)
      = Cert.Spec.A (m ((c : Thread nD τ).loc main_arg0)) (m ((c : Thread nD τ).loc main_arg1)) (rowOf t p) j := by
  refine (Body.pay2_at (Gen.iblk m c 0 t) (Gen.iblk m c 1 t) p j).trans ?_
  rw [scoreRow_eq]
  rfl

/-- The readout block of point `t` at `(p, q)`. -/
theorem readBlock_at (c : Dev nD) (t : Fin cfg0.N) (p : Fin 512) (q : Fin 768) :
    Gen.k0_pay1 (F := Ideal) (Gen.k0_pay3 (Gen.iblk m c 0 t) (Gen.iblk m c 1 t)) (Gen.iblk m c 2 t) (ix2 p q)
      = Cert.Spec.Zh (m ((c : Thread nD τ).loc main_arg0)) (m ((c : Thread nD τ).loc main_arg1)) (rowOf t p) q := by
  refine (Body.pay1_at (Gen.iblk m c 0 t) (Gen.iblk m c 1 t) (Gen.iblk m c 2 t) p q).trans ?_
  rw [scoreRow_eq]
  have h2 : (fun k c' => (Gen.iblk m c 2 t : Vec Ideal S512x768 .bf16) (ix2 k c'))
      = Cert.Spec.mrow (m ((c : Thread nD τ).loc main_arg1)) := funext fun k => funext fun c' => rawBlock_at m c t k c'
  rw [h2]
  rfl

/-- WHAT POINT `t` WRITES BACK to the attention matrix is block `t` of the attention matrix of the arguments. -/
theorem flushed4_eq (c : Dev nD) (t : Fin cfg0.N) :
    (Gen.dats m 0 c).flushed 4 t = ((cfg0.win 4).blk t).view.read (Elt Ideal)
      (Cert.Spec.A2 (m ((c : Thread nD τ).loc main_arg0)) (m ((c : Thread nD τ).loc main_arg1))) := by
  show (cfg0.win 4).cut (grid0.coords t) ((Gen.dats m 0 c).after 4 t) = _
  rw [Gen.after0_4]
  unfold Gen.out0_4
  rw [View.canon_unit_zero hz]
  simp only [View.ld_unit_zero (S := S512x768) hz]
  obtain ⟨-, -, -, -, -, -, -, -, e0, e1⟩ := idx_facts t
  funext y
  obtain ⟨p, j, rfl⟩ : ∃ (p : Fin 512) (j : Fin 512), y = ix2 p j := ⟨y 0, y 1, eq_ix2 y⟩
  show Gen.k0_pay2 (F := Ideal) (Gen.iblk m c 0 t) (Gen.iblk m c 1 t) (ix2 p j)
    = Cert.Spec.A2 (m ((c : Thread nD τ).loc main_arg0)) (m ((c : Thread nD τ).loc main_arg1)) (((cfg0.win 4).blk t).view.emb (ix2 p j))
  have e : ((cfg0.win 4).blk t).view.emb (ix2 p j) = (ix2 (rowOf t p) j : S32768x512.Idx) := by
    funext a; apply Fin.ext
    match a with
    | ⟨0, _⟩ => show win0_4.index t (0 : Fin 2) * 512 + 1 * p.val = t.val * 512 + p.val; omega
    | ⟨1, _⟩ => show win0_4.index t (1 : Fin 2) * 512 + 1 * j.val = j.val; omega
  rw [e, Cert.Spec.A2_at]
  exact attnBlock_at m c t p j

/-- WHAT POINT `t` WRITES BACK to the readout matrix is block `t` of the readout matrix of the arguments. -/
theorem flushed3_eq (c : Dev nD) (t : Fin cfg0.N) :
    (Gen.dats m 0 c).flushed 3 t = ((cfg0.win 3).blk t).view.read (Elt Ideal)
      (Cert.Spec.Z2 (m ((c : Thread nD τ).loc main_arg0)) (m ((c : Thread nD τ).loc main_arg1))) := by
  show (cfg0.win 3).cut (grid0.coords t) ((Gen.dats m 0 c).after 3 t) = _
  rw [Gen.after0_3]
  unfold Gen.out0_3
  rw [View.canon_unit_zero hz]
  simp only [View.ld_unit_zero (S := S512x768) hz]
  obtain ⟨-, -, -, -, -, -, e0, e1, -⟩ := idx_facts t
  funext y
  obtain ⟨p, q, rfl⟩ : ∃ (p : Fin 512) (q : Fin 768), y = ix2 p q := ⟨y 0, y 1, eq_ix2 y⟩
  show Gen.k0_pay1 (F := Ideal) (Gen.k0_pay3 (Gen.iblk m c 0 t) (Gen.iblk m c 1 t)) (Gen.iblk m c 2 t) (ix2 p q)
    = Cert.Spec.Z2 (m ((c : Thread nD τ).loc main_arg0)) (m ((c : Thread nD τ).loc main_arg1)) (((cfg0.win 3).blk t).view.emb (ix2 p q))
  have e : ((cfg0.win 3).blk t).view.emb (ix2 p q) = (ix2 (rowOf t p) q : S32768x768.Idx) := by
    funext a; apply Fin.ext
    match a with
    | ⟨0, _⟩ => show win0_3.index t (0 : Fin 2) * 512 + 1 * p.val = t.val * 512 + p.val; omega
    | ⟨1, _⟩ => show win0_3.index t (1 : Fin 2) * 768 + 1 * q.val = q.val; omega
  rw [e, Cert.Spec.Z2_at]
  exact readBlock_at m c t p q

/-! ## The blocks tile the arrays -/

theorem mem_blk4 (t : Fin cfg0.N) (i : S32768x512.Idx) :
    i ∈ ((cfg0.win 4).blk t).view.set ↔ ∀ a : Fin 2, win0_4.index t a * S512x512.size a ≤ (i a).val ∧ (i a).val < win0_4.index t a * S512x512.size a + S512x512.size a := by
  show i ∈ ((View.whole main_v12_1).slice (win0_4.rect t)).set ↔ _
  rw [View.set_slice_whole, Rect.mem_set_unit]
  exact Iff.rfl

theorem mem_blk3 (t : Fin cfg0.N) (i : S32768x768.Idx) :
    i ∈ ((cfg0.win 3).blk t).view.set ↔ ∀ a : Fin 2, win0_3.index t a * S512x768.size a ≤ (i a).val ∧ (i a).val < win0_3.index t a * S512x768.size a + S512x768.size a := by
  show i ∈ ((View.whole main_v12_0).slice (win0_3.rect t)).set ↔ _
  rw [View.set_slice_whole, Rect.mem_set_unit]
  exact Iff.rfl

/-- Row `r` of the attention matrix is in the block of point `r / 512`. -/
theorem cover4 (i : S32768x512.Idx) :
    ∃ t : Fin cfg0.N, (cfg0.win 4).flush t = true ∧ i ∈ ((cfg0.win 4).blk t).view.set := by
  have hi0 : (i 0).val < 32768 := (i 0).isLt
  have hi1 : (i 1).val < 512 := (i 1).isLt
  have hN : grid0.N = 64 := Gen.N_0
  have ht : (i 0).val / 512 < grid0.N := by omega
  obtain ⟨-, -, -, -, -, -, -, -, e0, e1⟩ := idx_facts ⟨(i 0).val / 512, ht⟩
  refine ⟨⟨(i 0).val / 512, ht⟩, Gen.flush0_4 _, ?_⟩
  rw [mem_blk4]
  intro a
  match a with
  | ⟨0, _⟩ =>
    show win0_4.index ⟨(i 0).val / 512, ht⟩ (0 : Fin 2) * 512 ≤ (i 0).val ∧ (i 0).val < win0_4.index ⟨(i 0).val / 512, ht⟩ (0 : Fin 2) * 512 + 512
    rw [e0]; show (i 0).val / 512 * 512 ≤ (i 0).val ∧ (i 0).val < (i 0).val / 512 * 512 + 512; omega
  | ⟨1, _⟩ =>
    show win0_4.index ⟨(i 0).val / 512, ht⟩ (1 : Fin 2) * 512 ≤ (i 1).val ∧ (i 1).val < win0_4.index ⟨(i 0).val / 512, ht⟩ (1 : Fin 2) * 512 + 512
    rw [e1]; omega

/-- Row `r` of the readout matrix is in the block of point `r / 512`. -/
theorem cover3 (i : S32768x768.Idx) :
    ∃ t : Fin cfg0.N, (cfg0.win 3).flush t = true ∧ i ∈ ((cfg0.win 3).blk t).view.set := by
  have hi0 : (i 0).val < 32768 := (i 0).isLt
  have hi1 : (i 1).val < 768 := (i 1).isLt
  have hN : grid0.N = 64 := Gen.N_0
  have ht : (i 0).val / 512 < grid0.N := by omega
  obtain ⟨-, -, -, -, -, -, e0, e1, -⟩ := idx_facts ⟨(i 0).val / 512, ht⟩
  refine ⟨⟨(i 0).val / 512, ht⟩, Gen.flush0_3 _, ?_⟩
  rw [mem_blk3]
  intro a
  match a with
  | ⟨0, _⟩ =>
    show win0_3.index ⟨(i 0).val / 512, ht⟩ (0 : Fin 2) * 512 ≤ (i 0).val ∧ (i 0).val < win0_3.index ⟨(i 0).val / 512, ht⟩ (0 : Fin 2) * 512 + 512
    rw [e0]; show (i 0).val / 512 * 512 ≤ (i 0).val ∧ (i 0).val < (i 0).val / 512 * 512 + 512; omega
  | ⟨1, _⟩ =>
    show win0_3.index ⟨(i 0).val / 512, ht⟩ (1 : Fin 2) * 768 ≤ (i 1).val ∧ (i 1).val < win0_3.index ⟨(i 0).val / 512, ht⟩ (1 : Fin 2) * 768 + 768
    rw [e1]; omega

/-! ## The arrays after the region -/

/-- The attention matrix after the region. -/
theorem final4 (c : Dev nD) : ((Gen.dats m 0 c).arrAt 4 cfg0.N : S32768x512.Idx → EReal)
    = Cert.Spec.A2 (m ((c : Thread nD τ).loc main_arg0)) (m ((c : Thread nD τ).loc main_arg1)) :=
  (Gen.dats m 0 c).arrAt_eq_of_cover 4 _ (fun t _ => flushed4_eq m c t) cover4

/-- The readout matrix after the region. -/
theorem final3 (c : Dev nD) : ((Gen.dats m 0 c).arrAt 3 cfg0.N : S32768x768.Idx → EReal)
    = Cert.Spec.Z2 (m ((c : Thread nD τ).loc main_arg0)) (m ((c : Thread nD τ).loc main_arg1)) :=
  (Gen.dats m 0 c).arrAt_eq_of_cover 3 _ (fun t _ => flushed3_eq m c t) cover3

end Cert.KernelIdeal.Arrays

end
-- ==== Proof.KernelTail.lean ====
/-
  The host lines after the kernel's region lay the two token matrices out as the program returns them: the readout
  matrix un-flattened and brought back to channels-first, the attention matrix re-grouped by image.
-/
import proofs.«153164_j1425929142868_1_alg».proof.Proof.Gen.KernelIdeal.Frame
import proofs.«153164_j1425929142868_1_alg».proof.Proof.TokenArrays
import proofs.«153164_j1425929142868_1_alg».proof.Proof.Layouts
import Idealize.ShloMosaic.Lib.StableHlo.Run

noncomputable section

namespace Cert.KernelIdeal.Tail

open Cert.KernelIdeal Cert.KernelIdeal.Facts₀ Idealize.ShloMosaic Idealize.ShloMosaic.TcCoe Idealize.SL.Sem
open Idealize.ShloMosaic.ValueIdx

variable (m : (ℓ : Loc nD τ sig) → Buf (Elt Ideal) ℓ)

theorem zhat_tail (c : Dev nD)
    (h3 : ((Gen.dats m 0 c).arrAt 3 cfg0.N : S32768x768.Idx → EReal) = Cert.Spec.Z2 (m ((c : Thread nD τ).loc main_arg0)) (m ((c : Thread nD τ).loc main_arg1))) :
    (Pipeline.afterTail₀ cfgs (Gen.dats m) 0 (Gen.V0 m) [Gen.hostOps1] c main_v14 : S32x768x32x32.Idx → EReal)
      = Cert.Spec.G0 (m ((c : Thread nD τ).loc main_arg0)) (m ((c : Thread nD τ).loc main_arg1)) := by
  unfold Pipeline.afterTail₀
  show StableHlo.after Gen.hostOps1 _ (Proc.devRef .tc main_v14) = _
  after_results
  rw [show Pipeline.withArrays (cfgs 0).spec c (Gen.V0 m c) (fun w => (Gen.dats m 0 c).arrAt w (cfgs 0).N) (Proc.devRef .tc main_v12_0)
        = Cert.Spec.Z2 (m ((c : Thread nD τ).loc main_arg0)) (m ((c : Thread nD τ).loc main_arg1))
      from (Pipeline.withArrays_arr spec0 Gen.launch0.win.arr_inj c _ _ 3).trans h3]
  funext i
  obtain ⟨b, k, h, w, rfl⟩ : ∃ (b : Fin 32) (k : Fin 768) (h w : Fin 32), i = ix4 b k h w := ⟨i 0, i 1, i 2, i 3, eq_ix4 i⟩
  refine (Cert.Layout.untokens_apply (Cert.Spec.Z2 (m ((c : Thread nD τ).loc main_arg0)) (m ((c : Thread nD τ).loc main_arg1)))
    Gen.shapeCasts_S32768x768_S32x32x32x768 Gen.transposes_S32x32x32x768_S32x768x32x32_0_3_1_2 b k h w).trans ?_
  rw [Cert.Spec.Z2_at]
  rfl

theorem attn_tail (c : Dev nD)
    (h4 : ((Gen.dats m 0 c).arrAt 4 cfg0.N : S32768x512.Idx → EReal) = Cert.Spec.A2 (m ((c : Thread nD τ).loc main_arg0)) (m ((c : Thread nD τ).loc main_arg1))) :
    (Pipeline.afterTail₀ cfgs (Gen.dats m) 0 (Gen.V0 m) [Gen.hostOps1] c main_v15 : S32x1024x512.Idx → EReal)
      = Cert.Spec.G1 (m ((c : Thread nD τ).loc main_arg0)) (m ((c : Thread nD τ).loc main_arg1)) := by
  unfold Pipeline.afterTail₀
  show StableHlo.after Gen.hostOps1 _ (Proc.devRef .tc main_v15) = _
  after_results
  rw [show Pipeline.withArrays (cfgs 0).spec c (Gen.V0 m c) (fun w => (Gen.dats m 0 c).arrAt w (cfgs 0).N) (Proc.devRef .tc main_v12_1)
        = Cert.Spec.A2 (m ((c : Thread nD τ).loc main_arg0)) (m ((c : Thread nD τ).loc main_arg1))
      from (Pipeline.withArrays_arr spec0 Gen.launch0.win.arr_inj c _ _ 4).trans h4]
  funext i
  obtain ⟨b, n, j, rfl⟩ : ∃ (b : Fin 32) (n : Fin 1024) (j : Fin 512), i = ix3 b n j := ⟨i 0, i 1, i 2, eq_ix3 i⟩
  refine (Cert.Layout.regroup_apply (Cert.Spec.A2 (m ((c : Thread nD τ).loc main_arg0)) (m ((c : Thread nD τ).loc main_arg1)))
    Gen.shapeCasts_S32768x512_S32x1024x512 b n j).trans ?_
  rw [Cert.Spec.A2_at]
  rfl

end Cert.KernelIdeal.Tail

end
-- ==== Proof.RefValue.lean ====
/-
  The reference program computes the specification's two results: stage by stage, each host operation read at an
  index is the corresponding operation of the specification on one token's row.
-/
import proofs.«153164_j1425929142868_1_alg».proof.Proof.Gen.ReferenceIdeal.Read
import proofs.«153164_j1425929142868_1_alg».proof.Proof.Spec
import Idealize.ShloMosaic.PureOps.Reduce
import Idealize.ShloMosaic.PureOps.Ideal
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

/-- Token `n` of image `b` as a row of the flattened feature map. -/
def row (b : Fin 32) (n : Fin 1024) : Fin 32768 := ⟨b.val * 1024 + n.val, by have := b.isLt; have := n.isLt; omega⟩

/-! ## The tokens as rows -/

/-- The transposed and flattened feature map at `(b, n, c)` is channel `c` of token `b·1024 + n`. -/
theorem v1_at (z : (⟨S32x768x32x32, .f32⟩ : BufTy).Contents (Elt Ideal)) (b : Fin 32) (n : Fin 1024) (c : Fin 768) :
    val_main_v1 (F := Ideal) z (ix3 b n c) = Cert.Spec.tok z (row b n) c := by
  rw [val_main_v1_apply, val_main_v0_apply]
  unfold Cert.Spec.tok row
  refine congrArg z (funext fun a => Fin.ext ?_)
  have hb := b.isLt; have hn := n.isLt; have hc := c.isLt
  match a with
  | ⟨0, _⟩ => show ((b.val * 1024 + n.val) * 768 + c.val) / 786432 = (b.val * 1024 + n.val) / 1024; omega
  | ⟨1, _⟩ => show ((b.val * 1024 + n.val) * 768 + c.val) % 768 = c.val; omega
  | ⟨2, _⟩ => show ((b.val * 1024 + n.val) * 768 + c.val) / 24576 % 32 = (b.val * 1024 + n.val) / 32 % 32; omega
  | ⟨3, _⟩ => show ((b.val * 1024 + n.val) * 768 + c.val) / 768 % 32 = (b.val * 1024 + n.val) % 32; omega

/-! ## Rows scaled to unit length -/

/-- A token's sum of squares: the host's sum starts from the zero word. -/
theorem v3_at (z : (⟨S32x768x32x32, .f32⟩ : BufTy).Contents (Elt Ideal)) (b : Fin 32) (n : Fin 1024) :
    val_main_v3 (F := Ideal) z (ix2 b n) = Cert.Spec.sumsq (Cert.Spec.tok z (row b n)) := by
  rw [val_main_v3_apply, val_main_cst_apply, Ideal.ofBits_def, Cert.Spec.zeroW_add]
  unfold Cert.Spec.sumsq
  refine Finset.sum_congr rfl fun k _ => ?_
  have e : idx_main_v3 (ix2 b n) k = ix3 b n k := funext fun a => by
    match a with | ⟨0, _⟩ => rfl | ⟨1, _⟩ => rfl | ⟨2, _⟩ => rfl
  rw [e, val_main_v2_apply, Ideal.mulf_def, v1_at]

/-- The divisor of a token's row: the larger of its norm and the floor. -/
theorem v8_at (z : (⟨S32x768x32x32, .f32⟩ : BufTy).Contents (Elt Ideal)) (b : Fin 32) (n : Fin 1024) (c : Fin 768) :
    val_main_v8 (F := Ideal) z (ix3 b n c)
      = max (Ideal.sqrt (Cert.Spec.sumsq (Cert.Spec.tok z (row b n)))) Cert.Spec.epsN := by
  rw [val_main_v8_apply, val_main_v7_apply, val_main_v5_apply, val_main_v4_apply, val_main_v6_apply, val_main_cst_0_apply]
  have e : idx_main_v4 (idx_main_v8 (ix3 b n c)) = ix2 b n := funext fun a => by
    match a with | ⟨0, _⟩ => rfl | ⟨1, _⟩ => rfl
  rw [e, v3_at]
  simp only [Ideal.maximumf_def, Ideal.hostUnary_sqrt_def, Ideal.ofBits_def]

/-- The scaled token. -/
theorem v9_at (z : (⟨S32x768x32x32, .f32⟩ : BufTy).Contents (Elt Ideal)) (b : Fin 32) (n : Fin 1024) (c : Fin 768) :
    val_main_v9 (F := Ideal) z (ix3 b n c) = Cert.Spec.nrm (Cert.Spec.tok z (row b n)) c := by
  rw [val_main_v9_apply, v1_at, v8_at, Ideal.hostDivf_def]
  rfl

/-- A bank row's sum of squares. -/
theorem v11_at (mem : (⟨S512x768, .f32⟩ : BufTy).Contents (Elt Ideal)) (j : Fin 512) :
    val_main_v11 (F := Ideal) mem (ix1 j) = Cert.Spec.sumsq (Cert.Spec.mrow mem j) := by
  rw [val_main_v11_apply, val_main_cst_1_apply, Ideal.ofBits_def, Cert.Spec.zeroW_add]
  unfold Cert.Spec.sumsq Cert.Spec.mrow
  refine Finset.sum_congr rfl fun k _ => ?_
  have e : idx_main_v11 (ix1 j) k = ix2 j k := funext fun a => by
    match a with | ⟨0, _⟩ => rfl | ⟨1, _⟩ => rfl
  rw [e, val_main_v10_apply, Ideal.mulf_def]

/-- The divisor of a bank row. -/
theorem v16_at (mem : (⟨S512x768, .f32⟩ : BufTy).Contents (Elt Ideal)) (j : Fin 512) (c : Fin 768) :
    val_main_v16 (F := Ideal) mem (ix2 j c)
      = max (Ideal.sqrt (Cert.Spec.sumsq (Cert.Spec.mrow mem j))) Cert.Spec.epsN := by
  rw [val_main_v16_apply, val_main_v15_apply, val_main_v13_apply, val_main_v12_apply, val_main_v14_apply, val_main_cst_2_apply]
  have e : idx_main_v12 (idx_main_v16 (ix2 j c)) = ix1 j := funext fun a => by
    match a with | ⟨0, _⟩ => rfl
  rw [e, v11_at]
  simp only [Ideal.maximumf_def, Ideal.hostUnary_sqrt_def, Ideal.ofBits_def]

/-- The scaled bank row. -/
theorem v17_at (mem : (⟨S512x768, .f32⟩ : BufTy).Contents (Elt Ideal)) (j : Fin 512) (c : Fin 768) :
    val_main_v17 (F := Ideal) mem (ix2 j c) = Cert.Spec.nrm (Cert.Spec.mrow mem j) c := by
  rw [val_main_v17_apply, v16_at, Ideal.hostDivf_def]
  rfl

/-! ## The cosine scores -/

/-- The scores of token `b·1024 + n` against the bank. -/
theorem v18_at (z : (⟨S32x768x32x32, .f32⟩ : BufTy).Contents (Elt Ideal)) (mem : (⟨S512x768, .f32⟩ : BufTy).Contents (Elt Ideal))
    (b : Fin 32) (n : Fin 1024) (j : Fin 512) :
    val_main_v18 (F := Ideal) z mem (ix3 b n j)
      = Cert.Spec.scores (Cert.Spec.nrm (Cert.Spec.tok z (row b n))) (fun j => Cert.Spec.nrm (Cert.Spec.mrow mem j)) j := by
  rw [val_main_v18_apply]
  unfold Cert.Spec.scores
  refine Finset.sum_congr rfl fun k _ => ?_
  have el : lidx_main_v18 (ix3 b n j) k = ix3 b n k := funext fun a => by
    match a with | ⟨0, _⟩ => rfl | ⟨1, _⟩ => rfl | ⟨2, _⟩ => rfl
  have er : ridx_main_v18 (ix3 b n j) k = ix2 j k := funext fun a => by
    match a with | ⟨0, _⟩ => rfl | ⟨1, _⟩ => rfl
  rw [el, er, v9_at, v17_at]

/-! ## Softmax, shrinkage and renormalisation of one token's scores

Through this section the scores of token `b·1024 + n` are an opaque row `sc z mem b n`. -/

/-- The score row of token `b·1024 + n`, as the program holds it. -/
def sc (z : (⟨S32x768x32x32, .f32⟩ : BufTy).Contents (Elt Ideal)) (mem : (⟨S512x768, .f32⟩ : BufTy).Contents (Elt Ideal))
    (b : Fin 32) (n : Fin 1024) (j : Fin 512) : EReal :=
  val_main_v18 (F := Ideal) z mem (ix3 b n j)

/-- Index `(b, n)` of the reduced array with coordinate `k` put back on the last axis is `(b, n, k)`. -/
theorem lift_at (h : S32x1024x512.Reduces [2] S32x1024) (b : Fin 32) (n : Fin 1024) (k : Fin (S32x1024x512.size 2)) :
    h.lift (ix2 b n) k = ix3 b n (⟨k.val, k.isLt⟩ : Fin 512) := by
  funext c; apply Fin.ext
  fin_cases c <;> rfl

/-- The row's maximum: the host's reduce with a maximum body is the fold over the last axis. -/
theorem v19_at (z : (⟨S32x768x32x32, .f32⟩ : BufTy).Contents (Elt Ideal)) (mem : (⟨S512x768, .f32⟩ : BufTy).Contents (Elt Ideal))
    (b : Fin 32) (n : Fin 1024) :
    val_main_v19 (F := Ideal) z mem (ix2 b n) = Cert.Spec.rowMax (sc z mem b n) := by
  have h : S32x1024x512.Reduces [2] S32x1024 := by decide
  unfold val_main_v19
  rw [Host.reduce_eq_fold_single FloatOps.maximumf _ _ reducesTo_S32x1024x512_S32x1024_d2 h h_S_]
  have hf : (val_main_v18 (F := Ideal) z mem ∘ h.lift (ix2 b n)) = fun k : Fin 512 => sc z mem b n k :=
    funext fun k => congrArg (val_main_v18 (F := Ideal) z mem) (lift_at h b n k)
  exact congrArg (fun f => Finset.fold max (Ideal.ofBits .f32 0xFF800000#32) f (Finset.univ : Finset (Fin 512))) hf

/-- Taking the maximum with `-∞` once more changes nothing. -/
theorem v21_at (z : (⟨S32x768x32x32, .f32⟩ : BufTy).Contents (Elt Ideal)) (mem : (⟨S512x768, .f32⟩ : BufTy).Contents (Elt Ideal))
    (b : Fin 32) (n : Fin 1024) :
    val_main_v21 (F := Ideal) z mem (ix2 b n) = Cert.Spec.rowMax (sc z mem b n) := by
  rw [val_main_v21_apply, val_main_v20_apply, val_main_cst_4_apply, v19_at, Ideal.maximumf_def, Ideal.ofBits_def]
  unfold Cert.Spec.rowMax
  exact Cert.Spec.max_fold_self _ _

/-- The maximum broadcast back along the row. -/
theorem v23_at (z : (⟨S32x768x32x32, .f32⟩ : BufTy).Contents (Elt Ideal)) (mem : (⟨S512x768, .f32⟩ : BufTy).Contents (Elt Ideal))
    (b : Fin 32) (n : Fin 1024) (j : Fin 512) :
    val_main_v23 (F := Ideal) z mem (ix3 b n j) = Cert.Spec.rowMax (sc z mem b n) := by
  rw [val_main_v23_apply, val_main_v22_apply]
  have e : idx_main_v22 (idx_main_v23 (ix3 b n j)) = ix2 b n := funext fun a => by
    match a with | ⟨0, _⟩ => rfl | ⟨1, _⟩ => rfl
  rw [e, v21_at]

/-- The exponentials. -/
theorem v25_at (z : (⟨S32x768x32x32, .f32⟩ : BufTy).Contents (Elt Ideal)) (mem : (⟨S512x768, .f32⟩ : BufTy).Contents (Elt Ideal))
    (b : Fin 32) (n : Fin 1024) (j : Fin 512) :
    val_main_v25 (F := Ideal) z mem (ix3 b n j) = Cert.Spec.ex (sc z mem b n) j := by
  rw [val_main_v25_apply, val_main_v24_apply, v23_at, Ideal.hostUnary_exp_def, Ideal.subf_def]
  rfl

/-- Their sum along the row. -/
theorem v26_at (z : (⟨S32x768x32x32, .f32⟩ : BufTy).Contents (Elt Ideal)) (mem : (⟨S512x768, .f32⟩ : BufTy).Contents (Elt Ideal))
    (b : Fin 32) (n : Fin 1024) :
    val_main_v26 (F := Ideal) z mem (ix2 b n) = ∑ k, Cert.Spec.ex (sc z mem b n) k := by
  rw [val_main_v26_apply, val_main_cst_5_apply, Ideal.ofBits_def, Cert.Spec.zeroW_add]
  refine Finset.sum_congr rfl fun k _ => ?_
  have e : idx_main_v26 (ix2 b n) k = ix3 b n k := funext fun a => by
    match a with | ⟨0, _⟩ => rfl | ⟨1, _⟩ => rfl | ⟨2, _⟩ => rfl
  rw [e, v25_at]

/-- The softmax weights. -/
theorem v29_at (z : (⟨S32x768x32x32, .f32⟩ : BufTy).Contents (Elt Ideal)) (mem : (⟨S512x768, .f32⟩ : BufTy).Contents (Elt Ideal))
    (b : Fin 32) (n : Fin 1024) (j : Fin 512) :
    val_main_v29 (F := Ideal) z mem (ix3 b n j) = Cert.Spec.soft (sc z mem b n) j := by
  rw [val_main_v29_apply, v25_at, val_main_v28_apply, val_main_v27_apply]
  have e : idx_main_v27 (idx_main_v28 (ix3 b n j)) = ix2 b n := funext fun a => by
    match a with | ⟨0, _⟩ => rfl | ⟨1, _⟩ => rfl
  rw [e, v26_at, Ideal.hostDivf_def]
  rfl

/-- A weight less the threshold. -/
theorem v31_at (z : (⟨S32x768x32x32, .f32⟩ : BufTy).Contents (Elt Ideal)) (mem : (⟨S512x768, .f32⟩ : BufTy).Contents (Elt Ideal))
    (b : Fin 32) (n : Fin 1024) (j : Fin 512) :
    val_main_v31 (F := Ideal) z mem (ix3 b n j) = Cert.Spec.soft (sc z mem b n) j - Cert.Spec.lam := by
  rw [val_main_v31_apply, v29_at, val_main_v30_apply, val_main_cst_6_apply, Ideal.subf_def, Ideal.ofBits_def]

/-- The shrunk weights. -/
theorem v37_at (z : (⟨S32x768x32x32, .f32⟩ : BufTy).Contents (Elt Ideal)) (mem : (⟨S512x768, .f32⟩ : BufTy).Contents (Elt Ideal))
    (b : Fin 32) (n : Fin 1024) (j : Fin 512) :
    val_main_v37 (F := Ideal) z mem (ix3 b n j) = Cert.Spec.shrink (Cert.Spec.soft (sc z mem b n) j) := by
  rw [val_main_v37_apply, val_main_v33_apply, val_main_v32_apply, val_main_v36_apply, val_main_v34_apply, val_main_v35_apply,
    val_main_cst_7_apply, val_main_call0_v0_apply, val_main_call0_cst_apply, v31_at, v29_at]
  simp only [Ideal.hostDivf_def, Ideal.mulf_def, Ideal.maximumf_def, Ideal.addf_def, Ideal.hostAbsf_def, Ideal.absf_def,
    Ideal.ofBits_def]
  rfl

/-- Their sum along the row. -/
theorem v38_at (z : (⟨S32x768x32x32, .f32⟩ : BufTy).Contents (Elt Ideal)) (mem : (⟨S512x768, .f32⟩ : BufTy).Contents (Elt Ideal))
    (b : Fin 32) (n : Fin 1024) :
    val_main_v38 (F := Ideal) z mem (ix2 b n) = ∑ k, Cert.Spec.shrink (Cert.Spec.soft (sc z mem b n) k) := by
  rw [val_main_v38_apply, val_main_cst_8_apply, Ideal.ofBits_def, Cert.Spec.zeroW_add]
  refine Finset.sum_congr rfl fun k _ => ?_
  have e : idx_main_v38 (ix2 b n) k = ix3 b n k := funext fun a => by
    match a with | ⟨0, _⟩ => rfl | ⟨1, _⟩ => rfl | ⟨2, _⟩ => rfl
  rw [e, v37_at]

/-- The renormalised weights: one token's attention over the bank. -/
theorem v43_at (z : (⟨S32x768x32x32, .f32⟩ : BufTy).Contents (Elt Ideal)) (mem : (⟨S512x768, .f32⟩ : BufTy).Contents (Elt Ideal))
    (b : Fin 32) (n : Fin 1024) (j : Fin 512) :
    val_main_v43 (F := Ideal) z mem (ix3 b n j) = Cert.Spec.attn (sc z mem b n) j := by
  rw [val_main_v43_apply, v37_at, val_main_v42_apply, val_main_v41_apply, val_main_v39_apply, val_main_v40_apply,
    val_main_cst_9_apply]
  have e : idx_main_v39 (idx_main_v42 (ix3 b n j)) = ix2 b n := funext fun a => by
    match a with | ⟨0, _⟩ => rfl | ⟨1, _⟩ => rfl
  rw [e, v38_at, Ideal.hostDivf_def, Ideal.addf_def, Ideal.ofBits_def]
  rfl

/-- The score row is the specification's. -/
theorem sc_eq (z : (⟨S32x768x32x32, .f32⟩ : BufTy).Contents (Elt Ideal)) (mem : (⟨S512x768, .f32⟩ : BufTy).Contents (Elt Ideal))
    (b : Fin 32) (n : Fin 1024) :
    sc z mem b n
      = Cert.Spec.scores (Cert.Spec.nrm (Cert.Spec.tok z (row b n))) (fun j => Cert.Spec.nrm (Cert.Spec.mrow mem j)) :=
  funext fun j => v18_at z mem b n j

/-- The attention at `(b, n, j)`. -/
theorem v43_A (z : (⟨S32x768x32x32, .f32⟩ : BufTy).Contents (Elt Ideal)) (mem : (⟨S512x768, .f32⟩ : BufTy).Contents (Elt Ideal))
    (b : Fin 32) (n : Fin 1024) (j : Fin 512) :
    val_main_v43 (F := Ideal) z mem (ix3 b n j) = Cert.Spec.A z mem (row b n) j := by
  rw [v43_at, sc_eq]
  rfl

/-! ## The readout, and its layout as a feature map -/

/-- The readout of token `b·1024 + n` against the unscaled bank. -/
theorem v44_at (z : (⟨S32x768x32x32, .f32⟩ : BufTy).Contents (Elt Ideal)) (mem : (⟨S512x768, .f32⟩ : BufTy).Contents (Elt Ideal))
    (b : Fin 32) (n : Fin 1024) (c : Fin 768) :
    val_main_v44 (F := Ideal) z mem (ix3 b n c) = Cert.Spec.Zh z mem (row b n) c := by
  rw [val_main_v44_apply]
  unfold Cert.Spec.Zh Cert.Spec.readout
  refine Finset.sum_congr rfl fun k _ => ?_
  have el : lidx_main_v44 (ix3 b n c) k = ix3 b n k := funext fun a => by
    match a with | ⟨0, _⟩ => rfl | ⟨1, _⟩ => rfl | ⟨2, _⟩ => rfl
  have er : ridx_main_v44 (ix3 b n c) k = ix2 k c := funext fun a => by
    match a with | ⟨0, _⟩ => rfl | ⟨1, _⟩ => rfl
  rw [el, er, v43_A]
  rfl

/-- Pixel `(h, w)` of image `b` is token `b·1024 + h·32 + w`. -/
theorem row_pixel (b h w : Fin 32) (hn : h.val * 32 + w.val < 1024) (hr : b.val * 1024 + h.val * 32 + w.val < 32768) :
    row b ⟨h.val * 32 + w.val, hn⟩ = (⟨b.val * 1024 + h.val * 32 + w.val, hr⟩ : Fin 32768) :=
  Fin.ext (by show b.val * 1024 + (h.val * 32 + w.val) = b.val * 1024 + h.val * 32 + w.val; omega)

/-- The result feature map at `(b, c, h, w)`: channel `c` of the readout of the token at pixel `(h, w)`. -/
theorem v46_at (z : (⟨S32x768x32x32, .f32⟩ : BufTy).Contents (Elt Ideal)) (mem : (⟨S512x768, .f32⟩ : BufTy).Contents (Elt Ideal))
    (b : Fin 32) (c : Fin 768) (h w : Fin 32) (hn : h.val * 32 + w.val < 1024) :
    val_main_v46 (F := Ideal) z mem (ix4 b c h w) = Cert.Spec.Zh z mem (row b ⟨h.val * 32 + w.val, hn⟩) c := by
  rw [val_main_v46_apply, val_main_v45_apply]
  have e : idx_main_v45 (idx_main_v46 (ix4 b c h w)) = ix3 b (⟨h.val * 32 + w.val, hn⟩ : Fin 1024) c :=
    funext fun a => Fin.ext (by
      have hb := b.isLt; have hc := c.isLt; have hh := h.isLt; have hw := w.isLt
      match a with
      | ⟨0, _⟩ => show (((b.val * 32 + h.val) * 32 + w.val) * 768 + c.val) / 786432 = b.val; omega
      | ⟨1, _⟩ => show (((b.val * 32 + h.val) * 32 + w.val) * 768 + c.val) / 768 % 1024 = h.val * 32 + w.val; omega
      | ⟨2, _⟩ => show (((b.val * 32 + h.val) * 32 + w.val) * 768 + c.val) % 768 = c.val; omega)
  rw [e, v44_at]

theorem attn_eq (z : (⟨Cert.ReferenceIdeal.S32x768x32x32, .f32⟩ : BufTy).Contents (Elt Ideal)) (mem : (⟨Cert.ReferenceIdeal.S512x768, .f32⟩ : BufTy).Contents (Elt Ideal)) :
    Cert.ReferenceIdeal.Read.val_main_v43 (F := Ideal) z mem = Cert.Spec.G1 z mem := by
  funext i
  obtain ⟨b, n, j, rfl⟩ : ∃ (b : Fin 32) (n : Fin 1024) (j : Fin 512), i = ix3 b n j := ⟨i 0, i 1, i 2, eq_ix3 i⟩
  rw [v43_A]
  rfl

theorem zhat_eq (z : (⟨Cert.ReferenceIdeal.S32x768x32x32, .f32⟩ : BufTy).Contents (Elt Ideal)) (mem : (⟨Cert.ReferenceIdeal.S512x768, .f32⟩ : BufTy).Contents (Elt Ideal)) :
    Cert.ReferenceIdeal.Read.val_main_v46 (F := Ideal) z mem = Cert.Spec.G0 z mem := by
  funext i
  obtain ⟨b, c, h, w, rfl⟩ : ∃ (b : Fin 32) (c : Fin 768) (h w : Fin 32), i = ix4 b c h w :=
    ⟨i 0, i 1, i 2, i 3, eq_ix4 i⟩
  have hn : h.val * 32 + w.val < 1024 := by have := h.isLt; have := w.isLt; omega
  have hr : b.val * 1024 + h.val * 32 + w.val < 32768 := by have := b.isLt; have := h.isLt; have := w.isLt; omega
  rw [v46_at z mem b c h w hn, row_pixel b h w hn hr]
  rfl

end Cert.ReferenceIdeal.RefValue

end
-- ==== Proof.lean ====
/-
  A fused memory-attention kernel against its jnp reference, over the extended reals.

  Both programs take a feature map `z : [32, 768, 32, 32]` and a memory bank `mem : [512, 768]`. Each of the 32768
  pixels is a token of 768 channels; the token and every bank row are scaled to unit length, the cosine scores of the
  token against the bank go through a softmax, a hard shrinkage and a renormalisation (the attention, returned as
  `[32, 1024, 512]`), and the attention-weighted sum of the raw bank rows is the token's readout (returned in the
  feature map's layout). The kernel works on 64 blocks of 512 tokens laid out as a `[32768, 768]` matrix; the reference
  on a `[32, 1024, 768]` array. `Cert.Spec` states one token's computation once; `KernelBody`, `KernelHost`,
  `KernelValue` and `KernelTail` read the kernel's two results as `Cert.Spec.G0` and `G1` of the arguments, and
  `RefValue` reads the reference's as the same two functions. No step needs the inputs finite: both sides apply the same
  operations to the same operands, and sums and maxima are only re-indexed.
-/
import proofs.«153164_j1425929142868_1_alg».proof.Defs
import proofs.«153164_j1425929142868_1_alg».proof.Proof.Gen.Kernel
import proofs.«153164_j1425929142868_1_alg».proof.Proof.Gen.Kernel.Frame
import proofs.«153164_j1425929142868_1_alg».proof.Proof.Gen.KernelIdeal
import proofs.«153164_j1425929142868_1_alg».proof.Proof.Gen.KernelIdeal.Frame
import proofs.«153164_j1425929142868_1_alg».proof.Proof.Gen.ReferenceIdeal
import proofs.«153164_j1425929142868_1_alg».proof.Proof.Gen.Pre_finite_inputs
import proofs.«153164_j1425929142868_1_alg».proof.Proof.Gen.ReferenceIdeal.Run
import proofs.«153164_j1425929142868_1_alg».proof.Proof.Gen.ReferenceIdeal.Read
import proofs.«153164_j1425929142868_1_alg».proof.Proof.KernelValue
import proofs.«153164_j1425929142868_1_alg».proof.Proof.KernelTail
import proofs.«153164_j1425929142868_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

section
open Cert.KernelIdeal

/-- The kernel's run, read: its two results at `G0` and `G1` of the arguments, the arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v14)
          = Cert.Spec.G0 (m ((c.tc : Thread nD τ).loc main_arg0)) (m ((c.tc : Thread nD τ).loc main_arg1))
      ∧ r.2.mem ((c.tc : Thread nD τ).loc main_v15)
          = Cert.Spec.G1 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v14 (Pipeline.mem_restRefs_of main_v14 (by decide) (by decide))).trans
          (Tail.zhat_tail m c (Arrays.final3 m c)),
        ((h c).2 main_v15 (Pipeline.mem_restRefs_of main_v15 (by decide) (by decide))).trans
          (Tail.attn_tail m c (Arrays.final4 m c)),
        ((h c).2 main_arg0 (Pipeline.mem_restRefs_of main_arg0 (by decide) (by decide))).trans (Gen.W_main_arg0 m (Gen.dats m) c),
        ((h c).2 main_arg1 (Pipeline.mem_restRefs_of main_arg1 (by decide) (by decide))).trans (Gen.W_main_arg1 m (Gen.dats m) c)⟩)
    (Gen.run_main m ρ)

end

/-- From memories agreeing on the arguments both programs end with the same two results: the kernel's by its run
    read above, the reference's by its generated run and `RefValue`. -/
theorem algebraic : Cert.algebraic_KernelIdeal_ReferenceIdeal := by
  intro m ρ m' ρ' _ hagree
  refine ⟨fun c => Cert.Spec.G0 (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Cert.Spec.G1 (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    kernel_run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v46_eq, Cert.ReferenceIdeal.RefValue.zhat_eq, (hagree c).1, (hagree c).2]
  · rw [(h c).2.1, Cert.ReferenceIdeal.Read.val_main_v43_eq, Cert.ReferenceIdeal.RefValue.attn_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
